-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x224x224x128 : Shape := ⟨4, ![16, 224, 224, 128]⟩
abbrev S_ : Shape := ⟨0, ![]⟩

class Facts : Prop where
  bcast_S_S16x224x224x128 : S_.BroadcastsInDim S16x224x224x128 (![] : Fin 0 → Fin S16x224x224x128.rank)
  reducesTo_S16x224x224x128_S_d0_1_2_3 : S16x224x224x128.ReducesTo [0, 1, 2, 3] S_
  h_S_ : 0 < S_.numel

variable [Facts]

def fn {F : FTy → Type} [FloatOps F] (main_arg0 : FVec F S16x224x224x128 .f32) : IVec S_ 1 :=
  let main_v0 : FVec F S16x224x224x128 .f32 := Host.absf main_arg0
  let main_cst : FVec F S_ .f32 := constant S_ .f32 0x7F800000#32
  let main_v1 : FVec F S16x224x224x128 .f32 := broadcastInDim S16x224x224x128 ![] bcast_S_S16x224x224x128 main_cst
  let main_v2 : IVec S16x224x224x128 1 := cmpf .olt main_v0 main_v1
  let main_c : IVec S_ 1 := constantI S_ 1 1#1
  let main_v3 : IVec S_ 1 := (fun x v => Host.reduce IntOp.andi x v reducesTo_S16x224x224x128_S_d0_1_2_3 h_S_) main_v2 main_c
  main_v3
-- ==== Kernel.lean ====
abbrev S16x224x224x128 : Shape := ⟨4, ![16, 224, 224, 128]⟩
abbrev S16x7x7x128 : Shape := ⟨4, ![16, 7, 7, 128]⟩
abbrev S4x32x224x128 : Shape := ⟨4, ![4, 32, 224, 128]⟩
abbrev S4x1x7x128 : Shape := ⟨4, ![4, 1, 7, 128]⟩
abbrev S4x224x128 : Shape := ⟨3, ![4, 224, 128]⟩
abbrev S4x1x224x128 : Shape := ⟨4, ![4, 1, 224, 128]⟩
abbrev S4x7x32x128 : Shape := ⟨4, ![4, 7, 32, 128]⟩
abbrev S4x7x128 : Shape := ⟨3, ![4, 7, 128]⟩

abbrev nBuf : Space → Nat
  | .hbm => 2
  | .vmem => 4
  | .smem => 0
  | _ => 0

abbrev bufTy : (tb : Table) → Fin (tcTables nBuf tb) → BufTy
  | .hbm, ⟨0, _⟩ => ⟨S16x224x224x128, .f32⟩
  | .hbm, ⟨1, _⟩ => ⟨S16x7x7x128, .f32⟩
  | .local _ .vmem, ⟨0, _⟩ => ⟨S4x32x224x128, .f32⟩
  | .local _ .vmem, ⟨1, _⟩ => ⟨S4x32x224x128, .f32⟩
  | .local _ .vmem, ⟨2, _⟩ => ⟨S4x1x7x128, .f32⟩
  | .local _ .vmem, ⟨3, _⟩ => ⟨S4x1x7x128, .f32⟩
  | _, _ => ⟨S16x224x224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x32x224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x7x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S4x32x224x128_S4x1x224x128_0_0_0_0 : ∀ a, (![0, 0, 0, 0] : Fin 4 → Nat) a + S4x1x224x128.size a ≤ S4x32x224x128.size a
  h_S4x1x224x128 : 0 < S4x1x224x128.numel
  shapeCasts_S4x1x224x128_S4x224x128 : S4x1x224x128.ShapeCasts S4x224x128
  inb_S4x32x224x128_S4x1x224x128_0_1_0_0 : ∀ a, (![0, 1, 0, 0] : Fin 4 → Nat) a + S4x1x224x128.size a ≤ S4x32x224x128.size a
  inb_S4x32x224x128_S4x1x224x128_0_2_0_0 : ∀ a, (![0, 2, 0, 0] : Fin 4 → Nat) a + S4x1x224x128.size a ≤ S4x32x224x128.size a
  inb_S4x32x224x128_S4x1x224x128_0_3_0_0 : ∀ a, (![0, 3, 0, 0] : Fin 4 → Nat) a + S4x1x224x128.size a ≤ S4x32x224x128.size a
  inb_S4x32x224x128_S4x1x224x128_0_4_0_0 : ∀ a, (![0, 4, 0, 0] : Fin 4 → Nat) a + S4x1x224x128.size a ≤ S4x32x224x128.size a
  inb_S4x32x224x128_S4x1x224x128_0_5_0_0 : ∀ a, (![0, 5, 0, 0] : Fin 4 → Nat) a + S4x1x224x128.size a ≤ S4x32x224x128.size a
  inb_S4x32x224x128_S4x1x224x128_0_6_0_0 : ∀ a, (![0, 6, 0, 0] : Fin 4 → Nat) a + S4x1x224x128.size a ≤ S4x32x224x128.size a
  inb_S4x32x224x128_S4x1x224x128_0_7_0_0 : ∀ a, (![0, 7, 0, 0] : Fin 4 → Nat) a + S4x1x224x128.size a ≤ S4x32x224x128.size a
  inb_S4x32x224x128_S4x1x224x128_0_8_0_0 : ∀ a, (![0, 8, 0, 0] : Fin 4 → Nat) a + S4x1x224x128.size a ≤ S4x32x224x128.size a
  inb_S4x32x224x128_S4x1x224x128_0_9_0_0 : ∀ a, (![0, 9, 0, 0] : Fin 4 → Nat) a + S4x1x224x128.size a ≤ S4x32x224x128.size a
  inb_S4x32x224x128_S4x1x224x128_0_10_0_0 : ∀ a, (![0, 10, 0, 0] : Fin 4 → Nat) a + S4x1x224x128.size a ≤ S4x32x224x128.size a
  inb_S4x32x224x128_S4x1x224x128_0_11_0_0 : ∀ a, (![0, 11, 0, 0] : Fin 4 → Nat) a + S4x1x224x128.size a ≤ S4x32x224x128.size a
  inb_S4x32x224x128_S4x1x224x128_0_12_0_0 : ∀ a, (![0, 12, 0, 0] : Fin 4 → Nat) a + S4x1x224x128.size a ≤ S4x32x224x128.size a
  inb_S4x32x224x128_S4x1x224x128_0_13_0_0 : ∀ a, (![0, 13, 0, 0] : Fin 4 → Nat) a + S4x1x224x128.size a ≤ S4x32x224x128.size a
  inb_S4x32x224x128_S4x1x224x128_0_14_0_0 : ∀ a, (![0, 14, 0, 0] : Fin 4 → Nat) a + S4x1x224x128.size a ≤ S4x32x224x128.size a
  inb_S4x32x224x128_S4x1x224x128_0_15_0_0 : ∀ a, (![0, 15, 0, 0] : Fin 4 → Nat) a + S4x1x224x128.size a ≤ S4x32x224x128.size a
  inb_S4x32x224x128_S4x1x224x128_0_16_0_0 : ∀ a, (![0, 16, 0, 0] : Fin 4 → Nat) a + S4x1x224x128.size a ≤ S4x32x224x128.size a
  inb_S4x32x224x128_S4x1x224x128_0_17_0_0 : ∀ a, (![0, 17, 0, 0] : Fin 4 → Nat) a + S4x1x224x128.size a ≤ S4x32x224x128.size a
  inb_S4x32x224x128_S4x1x224x128_0_18_0_0 : ∀ a, (![0, 18, 0, 0] : Fin 4 → Nat) a + S4x1x224x128.size a ≤ S4x32x224x128.size a
  inb_S4x32x224x128_S4x1x224x128_0_19_0_0 : ∀ a, (![0, 19, 0, 0] : Fin 4 → Nat) a + S4x1x224x128.size a ≤ S4x32x224x128.size a
  inb_S4x32x224x128_S4x1x224x128_0_20_0_0 : ∀ a, (![0, 20, 0, 0] : Fin 4 → Nat) a + S4x1x224x128.size a ≤ S4x32x224x128.size a
  inb_S4x32x224x128_S4x1x224x128_0_21_0_0 : ∀ a, (![0, 21, 0, 0] : Fin 4 → Nat) a + S4x1x224x128.size a ≤ S4x32x224x128.size a
  inb_S4x32x224x128_S4x1x224x128_0_22_0_0 : ∀ a, (![0, 22, 0, 0] : Fin 4 → Nat) a + S4x1x224x128.size a ≤ S4x32x224x128.size a
  inb_S4x32x224x128_S4x1x224x128_0_23_0_0 : ∀ a, (![0, 23, 0, 0] : Fin 4 → Nat) a + S4x1x224x128.size a ≤ S4x32x224x128.size a
  inb_S4x32x224x128_S4x1x224x128_0_24_0_0 : ∀ a, (![0, 24, 0, 0] : Fin 4 → Nat) a + S4x1x224x128.size a ≤ S4x32x224x128.size a
  inb_S4x32x224x128_S4x1x224x128_0_25_0_0 : ∀ a, (![0, 25, 0, 0] : Fin 4 → Nat) a + S4x1x224x128.size a ≤ S4x32x224x128.size a
  inb_S4x32x224x128_S4x1x224x128_0_26_0_0 : ∀ a, (![0, 26, 0, 0] : Fin 4 → Nat) a + S4x1x224x128.size a ≤ S4x32x224x128.size a
  inb_S4x32x224x128_S4x1x224x128_0_27_0_0 : ∀ a, (![0, 27, 0, 0] : Fin 4 → Nat) a + S4x1x224x128.size a ≤ S4x32x224x128.size a
  inb_S4x32x224x128_S4x1x224x128_0_28_0_0 : ∀ a, (![0, 28, 0, 0] : Fin 4 → Nat) a + S4x1x224x128.size a ≤ S4x32x224x128.size a
  inb_S4x32x224x128_S4x1x224x128_0_29_0_0 : ∀ a, (![0, 29, 0, 0] : Fin 4 → Nat) a + S4x1x224x128.size a ≤ S4x32x224x128.size a
  inb_S4x32x224x128_S4x1x224x128_0_30_0_0 : ∀ a, (![0, 30, 0, 0] : Fin 4 → Nat) a + S4x1x224x128.size a ≤ S4x32x224x128.size a
  inb_S4x32x224x128_S4x1x224x128_0_31_0_0 : ∀ a, (![0, 31, 0, 0] : Fin 4 → Nat) a + S4x1x224x128.size a ≤ S4x32x224x128.size a
  shapeCasts_S4x224x128_S4x7x32x128 : S4x224x128.ShapeCasts S4x7x32x128
  reduces_S4x7x32x128_S4x7x128 : S4x7x32x128.Reduces [2] S4x7x128
  shapeCasts_S4x7x128_S4x1x7x128 : S4x7x128.ShapeCasts S4x1x7x128
  inb_S4x1x7x128_S4x1x7x128_0_0_0_0 : ∀ a, (![0, 0, 0, 0] : Fin 4 → Nat) a + S4x1x7x128.size a ≤ S4x1x7x128.size a
  h_S4x1x7x128 : 0 < S4x1x7x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x224x128.size a ≤ S16x224x224x128.size a
  hwx0_0 : ∀ i : grid0.Coords, EltTy.bits .f32 = 32 ∨ (Rect.block (s := S16x224x224x128) S4x32x224x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x7x128.size a ≤ S16x7x7x128.size a
  hwx0_1 : ∀ i : grid0.Coords, EltTy.bits .f32 = 32 ∨ (Rect.block (s := S16x7x7x128) S4x1x7x128.size (cc0_transform_1 i) (hinb0_1 i)).WholeWords (EltTy.packing .f32)

variable [Facts₀]

abbrev win0_0 : Pipeline.Window sig grid0 :=
  Pipeline.Window.ofSpec (Memref.whole main_arg0) S4x32x224x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1x7x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x224x224x128 : Shape := ⟨4, ![16, 224, 224, 128]⟩
abbrev S16x32x32x128 : Shape := ⟨4, ![16, 32, 32, 128]⟩
abbrev S_ : Shape := ⟨0, ![]⟩
abbrev S16x128 : Shape := ⟨2, ![16, 128]⟩
abbrev S16x1x1x128 : Shape := ⟨4, ![16, 1, 1, 128]⟩
abbrev S16x1x7x128 : Shape := ⟨4, ![16, 1, 7, 128]⟩
abbrev S16x7x7x128 : Shape := ⟨4, ![16, 7, 7, 128]⟩

abbrev nBuf : Space → Nat
  | .hbm => 352
  | .vmem => 0
  | .smem => 0
  | _ => 0

abbrev hbmTy0_0 (i : Nat) : BufTy := match i % 128 with
  | 0 => ⟨S16x224x224x128, .f32⟩
  | 1 => ⟨S16x32x32x128, .f32⟩
  | 2 => ⟨S_, .f32⟩
  | 3 => ⟨S16x128, .f32⟩
  | 4 => ⟨S16x1x1x128, .f32⟩
  | 5 => ⟨S_, .f32⟩
  | 6 => ⟨S16x1x1x128, .f32⟩
  | 7 => ⟨S16x1x1x128, .f32⟩
  | 8 => ⟨S16x32x32x128, .f32⟩
  | 9 => ⟨S_, .f32⟩
  | 10 => ⟨S16x128, .f32⟩
  | 11 => ⟨S16x1x1x128, .f32⟩
  | 12 => ⟨S_, .f32⟩
  | 13 => ⟨S16x1x1x128, .f32⟩
  | 14 => ⟨S16x1x1x128, .f32⟩
  | 15 => ⟨S16x32x32x128, .f32⟩
  | 16 => ⟨S_, .f32⟩
  | 17 => ⟨S16x128, .f32⟩
  | 18 => ⟨S16x1x1x128, .f32⟩
  | 19 => ⟨S_, .f32⟩
  | 20 => ⟨S16x1x1x128, .f32⟩
  | 21 => ⟨S16x1x1x128, .f32⟩
  | 22 => ⟨S16x32x32x128, .f32⟩
  | 23 => ⟨S_, .f32⟩
  | 24 => ⟨S16x128, .f32⟩
  | 25 => ⟨S16x1x1x128, .f32⟩
  | 26 => ⟨S_, .f32⟩
  | 27 => ⟨S16x1x1x128, .f32⟩
  | 28 => ⟨S16x1x1x128, .f32⟩
  | 29 => ⟨S16x32x32x128, .f32⟩
  | 30 => ⟨S_, .f32⟩
  | 31 => ⟨S16x128, .f32⟩
  | 32 => ⟨S16x1x1x128, .f32⟩
  | 33 => ⟨S_, .f32⟩
  | 34 => ⟨S16x1x1x128, .f32⟩
  | 35 => ⟨S16x1x1x128, .f32⟩
  | 36 => ⟨S16x32x32x128, .f32⟩
  | 37 => ⟨S_, .f32⟩
  | 38 => ⟨S16x128, .f32⟩
  | 39 => ⟨S16x1x1x128, .f32⟩
  | 40 => ⟨S_, .f32⟩
  | 41 => ⟨S16x1x1x128, .f32⟩
  | 42 => ⟨S16x1x1x128, .f32⟩
  | 43 => ⟨S16x32x32x128, .f32⟩
  | 44 => ⟨S_, .f32⟩
  | 45 => ⟨S16x128, .f32⟩
  | 46 => ⟨S16x1x1x128, .f32⟩
  | 47 => ⟨S_, .f32⟩
  | 48 => ⟨S16x1x1x128, .f32⟩
  | 49 => ⟨S16x1x1x128, .f32⟩
  | 50 => ⟨S16x1x7x128, .f32⟩
  | 51 => ⟨S16x32x32x128, .f32⟩
  | 52 => ⟨S_, .f32⟩
  | 53 => ⟨S16x128, .f32⟩
  | 54 => ⟨S16x1x1x128, .f32⟩
  | 55 => ⟨S_, .f32⟩
  | 56 => ⟨S16x1x1x128, .f32⟩
  | 57 => ⟨S16x1x1x128, .f32⟩
  | 58 => ⟨S16x32x32x128, .f32⟩
  | 59 => ⟨S_, .f32⟩
  | 60 => ⟨S16x128, .f32⟩
  | 61 => ⟨S16x1x1x128, .f32⟩
  | 62 => ⟨S_, .f32⟩
  | 63 => ⟨S16x1x1x128, .f32⟩
  | 64 => ⟨S16x1x1x128, .f32⟩
  | 65 => ⟨S16x32x32x128, .f32⟩
  | 66 => ⟨S_, .f32⟩
  | 67 => ⟨S16x128, .f32⟩
  | 68 => ⟨S16x1x1x128, .f32⟩
  | 69 => ⟨S_, .f32⟩
  | 70 => ⟨S16x1x1x128, .f32⟩
  | 71 => ⟨S16x1x1x128, .f32⟩
  | 72 => ⟨S16x32x32x128, .f32⟩
  | 73 => ⟨S_, .f32⟩
  | 74 => ⟨S16x128, .f32⟩
  | 75 => ⟨S16x1x1x128, .f32⟩
  | 76 => ⟨S_, .f32⟩
  | 77 => ⟨S16x1x1x128, .f32⟩
  | 78 => ⟨S16x1x1x128, .f32⟩
  | 79 => ⟨S16x32x32x128, .f32⟩
  | 80 => ⟨S_, .f32⟩
  | 81 => ⟨S16x128, .f32⟩
  | 82 => ⟨S16x1x1x128, .f32⟩
  | 83 => ⟨S_, .f32⟩
  | 84 => ⟨S16x1x1x128, .f32⟩
  | 85 => ⟨S16x1x1x128, .f32⟩
  | 86 => ⟨S16x32x32x128, .f32⟩
  | 87 => ⟨S_, .f32⟩
  | 88 => ⟨S16x128, .f32⟩
  | 89 => ⟨S16x1x1x128, .f32⟩
  | 90 => ⟨S_, .f32⟩
  | 91 => ⟨S16x1x1x128, .f32⟩
  | 92 => ⟨S16x1x1x128, .f32⟩
  | 93 => ⟨S16x32x32x128, .f32⟩
  | 94 => ⟨S_, .f32⟩
  | 95 => ⟨S16x128, .f32⟩
  | 96 => ⟨S16x1x1x128, .f32⟩
  | 97 => ⟨S_, .f32⟩
  | 98 => ⟨S16x1x1x128, .f32⟩
  | 99 => ⟨S16x1x1x128, .f32⟩
  | 100 => ⟨S16x1x7x128, .f32⟩
  | 101 => ⟨S16x32x32x128, .f32⟩
  | 102 => ⟨S_, .f32⟩
  | 103 => ⟨S16x128, .f32⟩
  | 104 => ⟨S16x1x1x128, .f32⟩
  | 105 => ⟨S_, .f32⟩
  | 106 => ⟨S16x1x1x128, .f32⟩
  | 107 => ⟨S16x1x1x128, .f32⟩
  | 108 => ⟨S16x32x32x128, .f32⟩
  | 109 => ⟨S_, .f32⟩
  | 110 => ⟨S16x128, .f32⟩
  | 111 => ⟨S16x1x1x128, .f32⟩
  | 112 => ⟨S_, .f32⟩
  | 113 => ⟨S16x1x1x128, .f32⟩
  | 114 => ⟨S16x1x1x128, .f32⟩
  | 115 => ⟨S16x32x32x128, .f32⟩
  | 116 => ⟨S_, .f32⟩
  | 117 => ⟨S16x128, .f32⟩
  | 118 => ⟨S16x1x1x128, .f32⟩
  | 119 => ⟨S_, .f32⟩
  | 120 => ⟨S16x1x1x128, .f32⟩
  | 121 => ⟨S16x1x1x128, .f32⟩
  | 122 => ⟨S16x32x32x128, .f32⟩
  | 123 => ⟨S_, .f32⟩
  | 124 => ⟨S16x128, .f32⟩
  | 125 => ⟨S16x1x1x128, .f32⟩
  | 126 => ⟨S_, .f32⟩
  | 127 => ⟨S16x1x1x128, .f32⟩
  | _ => ⟨S16x224x224x128, .f32⟩

abbrev hbmTy0_1 (i : Nat) : BufTy := match i % 128 with
  | 0 => ⟨S16x1x1x128, .f32⟩
  | 1 => ⟨S16x32x32x128, .f32⟩
  | 2 => ⟨S_, .f32⟩
  | 3 => ⟨S16x128, .f32⟩
  | 4 => ⟨S16x1x1x128, .f32⟩
  | 5 => ⟨S_, .f32⟩
  | 6 => ⟨S16x1x1x128, .f32⟩
  | 7 => ⟨S16x1x1x128, .f32⟩
  | 8 => ⟨S16x32x32x128, .f32⟩
  | 9 => ⟨S_, .f32⟩
  | 10 => ⟨S16x128, .f32⟩
  | 11 => ⟨S16x1x1x128, .f32⟩
  | 12 => ⟨S_, .f32⟩
  | 13 => ⟨S16x1x1x128, .f32⟩
  | 14 => ⟨S16x1x1x128, .f32⟩
  | 15 => ⟨S16x32x32x128, .f32⟩
  | 16 => ⟨S_, .f32⟩
  | 17 => ⟨S16x128, .f32⟩
  | 18 => ⟨S16x1x1x128, .f32⟩
  | 19 => ⟨S_, .f32⟩
  | 20 => ⟨S16x1x1x128, .f32⟩
  | 21 => ⟨S16x1x1x128, .f32⟩
  | 22 => ⟨S16x1x7x128, .f32⟩
  | 23 => ⟨S16x32x32x128, .f32⟩
  | 24 => ⟨S_, .f32⟩
  | 25 => ⟨S16x128, .f32⟩
  | 26 => ⟨S16x1x1x128, .f32⟩
  | 27 => ⟨S_, .f32⟩
  | 28 => ⟨S16x1x1x128, .f32⟩
  | 29 => ⟨S16x1x1x128, .f32⟩
  | 30 => ⟨S16x32x32x128, .f32⟩
  | 31 => ⟨S_, .f32⟩
  | 32 => ⟨S16x128, .f32⟩
  | 33 => ⟨S16x1x1x128, .f32⟩
  | 34 => ⟨S_, .f32⟩
  | 35 => ⟨S16x1x1x128, .f32⟩
  | 36 => ⟨S16x1x1x128, .f32⟩
  | 37 => ⟨S16x32x32x128, .f32⟩
  | 38 => ⟨S_, .f32⟩
  | 39 => ⟨S16x128, .f32⟩
  | 40 => ⟨S16x1x1x128, .f32⟩
  | 41 => ⟨S_, .f32⟩
  | 42 => ⟨S16x1x1x128, .f32⟩
  | 43 => ⟨S16x1x1x128, .f32⟩
  | 44 => ⟨S16x32x32x128, .f32⟩
  | 45 => ⟨S_, .f32⟩
  | 46 => ⟨S16x128, .f32⟩
  | 47 => ⟨S16x1x1x128, .f32⟩
  | 48 => ⟨S_, .f32⟩
  | 49 => ⟨S16x1x1x128, .f32⟩
  | 50 => ⟨S16x1x1x128, .f32⟩
  | 51 => ⟨S16x32x32x128, .f32⟩
  | 52 => ⟨S_, .f32⟩
  | 53 => ⟨S16x128, .f32⟩
  | 54 => ⟨S16x1x1x128, .f32⟩
  | 55 => ⟨S_, .f32⟩
  | 56 => ⟨S16x1x1x128, .f32⟩
  | 57 => ⟨S16x1x1x128, .f32⟩
  | 58 => ⟨S16x32x32x128, .f32⟩
  | 59 => ⟨S_, .f32⟩
  | 60 => ⟨S16x128, .f32⟩
  | 61 => ⟨S16x1x1x128, .f32⟩
  | 62 => ⟨S_, .f32⟩
  | 63 => ⟨S16x1x1x128, .f32⟩
  | 64 => ⟨S16x1x1x128, .f32⟩
  | 65 => ⟨S16x32x32x128, .f32⟩
  | 66 => ⟨S_, .f32⟩
  | 67 => ⟨S16x128, .f32⟩
  | 68 => ⟨S16x1x1x128, .f32⟩
  | 69 => ⟨S_, .f32⟩
  | 70 => ⟨S16x1x1x128, .f32⟩
  | 71 => ⟨S16x1x1x128, .f32⟩
  | 72 => ⟨S16x1x7x128, .f32⟩
  | 73 => ⟨S16x32x32x128, .f32⟩
  | 74 => ⟨S_, .f32⟩
  | 75 => ⟨S16x128, .f32⟩
  | 76 => ⟨S16x1x1x128, .f32⟩
  | 77 => ⟨S_, .f32⟩
  | 78 => ⟨S16x1x1x128, .f32⟩
  | 79 => ⟨S16x1x1x128, .f32⟩
  | 80 => ⟨S16x32x32x128, .f32⟩
  | 81 => ⟨S_, .f32⟩
  | 82 => ⟨S16x128, .f32⟩
  | 83 => ⟨S16x1x1x128, .f32⟩
  | 84 => ⟨S_, .f32⟩
  | 85 => ⟨S16x1x1x128, .f32⟩
  | 86 => ⟨S16x1x1x128, .f32⟩
  | 87 => ⟨S16x32x32x128, .f32⟩
  | 88 => ⟨S_, .f32⟩
  | 89 => ⟨S16x128, .f32⟩
  | 90 => ⟨S16x1x1x128, .f32⟩
  | 91 => ⟨S_, .f32⟩
  | 92 => ⟨S16x1x1x128, .f32⟩
  | 93 => ⟨S16x1x1x128, .f32⟩
  | 94 => ⟨S16x32x32x128, .f32⟩
  | 95 => ⟨S_, .f32⟩
  | 96 => ⟨S16x128, .f32⟩
  | 97 => ⟨S16x1x1x128, .f32⟩
  | 98 => ⟨S_, .f32⟩
  | 99 => ⟨S16x1x1x128, .f32⟩
  | 100 => ⟨S16x1x1x128, .f32⟩
  | 101 => ⟨S16x32x32x128, .f32⟩
  | 102 => ⟨S_, .f32⟩
  | 103 => ⟨S16x128, .f32⟩
  | 104 => ⟨S16x1x1x128, .f32⟩
  | 105 => ⟨S_, .f32⟩
  | 106 => ⟨S16x1x1x128, .f32⟩
  | 107 => ⟨S16x1x1x128, .f32⟩
  | 108 => ⟨S16x32x32x128, .f32⟩
  | 109 => ⟨S_, .f32⟩
  | 110 => ⟨S16x128, .f32⟩
  | 111 => ⟨S16x1x1x128, .f32⟩
  | 112 => ⟨S_, .f32⟩
  | 113 => ⟨S16x1x1x128, .f32⟩
  | 114 => ⟨S16x1x1x128, .f32⟩
  | 115 => ⟨S16x32x32x128, .f32⟩
  | 116 => ⟨S_, .f32⟩
  | 117 => ⟨S16x128, .f32⟩
  | 118 => ⟨S16x1x1x128, .f32⟩
  | 119 => ⟨S_, .f32⟩
  | 120 => ⟨S16x1x1x128, .f32⟩
  | 121 => ⟨S16x1x1x128, .f32⟩
  | 122 => ⟨S16x1x7x128, .f32⟩
  | 123 => ⟨S16x32x32x128, .f32⟩
  | 124 => ⟨S_, .f32⟩
  | 125 => ⟨S16x128, .f32⟩
  | 126 => ⟨S16x1x1x128, .f32⟩
  | 127 => ⟨S_, .f32⟩
  | _ => ⟨S16x224x224x128, .f32⟩

abbrev hbmTy0_2 (i : Nat) : BufTy := match i % 128 with
  | 0 => ⟨S16x1x1x128, .f32⟩
  | 1 => ⟨S16x1x1x128, .f32⟩
  | 2 => ⟨S16x32x32x128, .f32⟩
  | 3 => ⟨S_, .f32⟩
  | 4 => ⟨S16x128, .f32⟩
  | 5 => ⟨S16x1x1x128, .f32⟩
  | 6 => ⟨S_, .f32⟩
  | 7 => ⟨S16x1x1x128, .f32⟩
  | 8 => ⟨S16x1x1x128, .f32⟩
  | 9 => ⟨S16x32x32x128, .f32⟩
  | 10 => ⟨S_, .f32⟩
  | 11 => ⟨S16x128, .f32⟩
  | 12 => ⟨S16x1x1x128, .f32⟩
  | 13 => ⟨S_, .f32⟩
  | 14 => ⟨S16x1x1x128, .f32⟩
  | 15 => ⟨S16x1x1x128, .f32⟩
  | 16 => ⟨S16x32x32x128, .f32⟩
  | 17 => ⟨S_, .f32⟩
  | 18 => ⟨S16x128, .f32⟩
  | 19 => ⟨S16x1x1x128, .f32⟩
  | 20 => ⟨S_, .f32⟩
  | 21 => ⟨S16x1x1x128, .f32⟩
  | 22 => ⟨S16x1x1x128, .f32⟩
  | 23 => ⟨S16x32x32x128, .f32⟩
  | 24 => ⟨S_, .f32⟩
  | 25 => ⟨S16x128, .f32⟩
  | 26 => ⟨S16x1x1x128, .f32⟩
  | 27 => ⟨S_, .f32⟩
  | 28 => ⟨S16x1x1x128, .f32⟩
  | 29 => ⟨S16x1x1x128, .f32⟩
  | 30 => ⟨S16x32x32x128, .f32⟩
  | 31 => ⟨S_, .f32⟩
  | 32 => ⟨S16x128, .f32⟩
  | 33 => ⟨S16x1x1x128, .f32⟩
  | 34 => ⟨S_, .f32⟩
  | 35 => ⟨S16x1x1x128, .f32⟩
  | 36 => ⟨S16x1x1x128, .f32⟩
  | 37 => ⟨S16x32x32x128, .f32⟩
  | 38 => ⟨S_, .f32⟩
  | 39 => ⟨S16x128, .f32⟩
  | 40 => ⟨S16x1x1x128, .f32⟩
  | 41 => ⟨S_, .f32⟩
  | 42 => ⟨S16x1x1x128, .f32⟩
  | 43 => ⟨S16x1x1x128, .f32⟩
  | 44 => ⟨S16x1x7x128, .f32⟩
  | 45 => ⟨S16x32x32x128, .f32⟩
  | 46 => ⟨S_, .f32⟩
  | 47 => ⟨S16x128, .f32⟩
  | 48 => ⟨S16x1x1x128, .f32⟩
  | 49 => ⟨S_, .f32⟩
  | 50 => ⟨S16x1x1x128, .f32⟩
  | 51 => ⟨S16x1x1x128, .f32⟩
  | 52 => ⟨S16x32x32x128, .f32⟩
  | 53 => ⟨S_, .f32⟩
  | 54 => ⟨S16x128, .f32⟩
  | 55 => ⟨S16x1x1x128, .f32⟩
  | 56 => ⟨S_, .f32⟩
  | 57 => ⟨S16x1x1x128, .f32⟩
  | 58 => ⟨S16x1x1x128, .f32⟩
  | 59 => ⟨S16x32x32x128, .f32⟩
  | 60 => ⟨S_, .f32⟩
  | 61 => ⟨S16x128, .f32⟩
  | 62 => ⟨S16x1x1x128, .f32⟩
  | 63 => ⟨S_, .f32⟩
  | 64 => ⟨S16x1x1x128, .f32⟩
  | 65 => ⟨S16x1x1x128, .f32⟩
  | 66 => ⟨S16x32x32x128, .f32⟩
  | 67 => ⟨S_, .f32⟩
  | 68 => ⟨S16x128, .f32⟩
  | 69 => ⟨S16x1x1x128, .f32⟩
  | 70 => ⟨S_, .f32⟩
  | 71 => ⟨S16x1x1x128, .f32⟩
  | 72 => ⟨S16x1x1x128, .f32⟩
  | 73 => ⟨S16x32x32x128, .f32⟩
  | 74 => ⟨S_, .f32⟩
  | 75 => ⟨S16x128, .f32⟩
  | 76 => ⟨S16x1x1x128, .f32⟩
  | 77 => ⟨S_, .f32⟩
  | 78 => ⟨S16x1x1x128, .f32⟩
  | 79 => ⟨S16x1x1x128, .f32⟩
  | 80 => ⟨S16x32x32x128, .f32⟩
  | 81 => ⟨S_, .f32⟩
  | 82 => ⟨S16x128, .f32⟩
  | 83 => ⟨S16x1x1x128, .f32⟩
  | 84 => ⟨S_, .f32⟩
  | 85 => ⟨S16x1x1x128, .f32⟩
  | 86 => ⟨S16x1x1x128, .f32⟩
  | 87 => ⟨S16x32x32x128, .f32⟩
  | 88 => ⟨S_, .f32⟩
  | 89 => ⟨S16x128, .f32⟩
  | 90 => ⟨S16x1x1x128, .f32⟩
  | 91 => ⟨S_, .f32⟩
  | 92 => ⟨S16x1x1x128, .f32⟩
  | 93 => ⟨S16x1x1x128, .f32⟩
  | 94 => ⟨S16x1x7x128, .f32⟩
  | 95 => ⟨S16x7x7x128, .f32⟩
  | _ => ⟨S16x224x224x128, .f32⟩

abbrev hbmTy (i : Nat) : BufTy := match i / 128 with
  | 0 => hbmTy0_0 i
  | 1 => hbmTy0_1 i
  | 2 => hbmTy0_2 i
  | _ => ⟨S16x224x224x128, .f32⟩

abbrev bufTy : (tb : Table) → Fin (tcTables nBuf tb) → BufTy
  | .hbm, ⟨i, _⟩ => hbmTy i
  | _, _ => ⟨S16x224x224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_7 : Ref sig .tc := ⟨.hbm, 30, rfl⟩
abbrev main_v21 : Ref sig .tc := ⟨.hbm, 31, rfl⟩
abbrev main_v22 : Ref sig .tc := ⟨.hbm, 32, rfl⟩
abbrev main_cst_8 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_9 : Ref sig .tc := ⟨.hbm, 37, rfl⟩
abbrev main_v26 : Ref sig .tc := ⟨.hbm, 38, rfl⟩
abbrev main_v27 : Ref sig .tc := ⟨.hbm, 39, rfl⟩
abbrev main_cst_10 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_11 : Ref sig .tc := ⟨.hbm, 44, rfl⟩
abbrev main_v31 : Ref sig .tc := ⟨.hbm, 45, rfl⟩
abbrev main_v32 : Ref sig .tc := ⟨.hbm, 46, rfl⟩
abbrev main_cst_12 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_13 : Ref sig .tc := ⟨.hbm, 52, rfl⟩
abbrev main_v37 : Ref sig .tc := ⟨.hbm, 53, rfl⟩
abbrev main_v38 : Ref sig .tc := ⟨.hbm, 54, rfl⟩
abbrev main_cst_14 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_15 : Ref sig .tc := ⟨.hbm, 59, rfl⟩
abbrev main_v42 : Ref sig .tc := ⟨.hbm, 60, rfl⟩
abbrev main_v43 : Ref sig .tc := ⟨.hbm, 61, rfl⟩
abbrev main_cst_16 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_17 : Ref sig .tc := ⟨.hbm, 66, rfl⟩
abbrev main_v47 : Ref sig .tc := ⟨.hbm, 67, rfl⟩
abbrev main_v48 : Ref sig .tc := ⟨.hbm, 68, rfl⟩
abbrev main_cst_18 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_19 : Ref sig .tc := ⟨.hbm, 73, rfl⟩
abbrev main_v52 : Ref sig .tc := ⟨.hbm, 74, rfl⟩
abbrev main_v53 : Ref sig .tc := ⟨.hbm, 75, rfl⟩
abbrev main_cst_20 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_21 : Ref sig .tc := ⟨.hbm, 80, rfl⟩
abbrev main_v57 : Ref sig .tc := ⟨.hbm, 81, rfl⟩
abbrev main_v58 : Ref sig .tc := ⟨.hbm, 82, rfl⟩
abbrev main_cst_22 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_23 : Ref sig .tc := ⟨.hbm, 87, rfl⟩
abbrev main_v62 : Ref sig .tc := ⟨.hbm, 88, rfl⟩
abbrev main_v63 : Ref sig .tc := ⟨.hbm, 89, rfl⟩
abbrev main_cst_24 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_25 : Ref sig .tc := ⟨.hbm, 94, rfl⟩
abbrev main_v67 : Ref sig .tc := ⟨.hbm, 95, rfl⟩
abbrev main_v68 : Ref sig .tc := ⟨.hbm, 96, rfl⟩
abbrev main_cst_26 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_27 : Ref sig .tc := ⟨.hbm, 102, rfl⟩
abbrev main_v73 : Ref sig .tc := ⟨.hbm, 103, rfl⟩
abbrev main_v74 : Ref sig .tc := ⟨.hbm, 104, rfl⟩
abbrev main_cst_28 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_29 : Ref sig .tc := ⟨.hbm, 109, rfl⟩
abbrev main_v78 : Ref sig .tc := ⟨.hbm, 110, rfl⟩
abbrev main_v79 : Ref sig .tc := ⟨.hbm, 111, rfl⟩
abbrev main_cst_30 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_31 : Ref sig .tc := ⟨.hbm, 116, rfl⟩
abbrev main_v83 : Ref sig .tc := ⟨.hbm, 117, rfl⟩
abbrev main_v84 : Ref sig .tc := ⟨.hbm, 118, rfl⟩
abbrev main_cst_32 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_33 : Ref sig .tc := ⟨.hbm, 123, rfl⟩
abbrev main_v88 : Ref sig .tc := ⟨.hbm, 124, rfl⟩
abbrev main_v89 : Ref sig .tc := ⟨.hbm, 125, rfl⟩
abbrev main_cst_34 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_35 : Ref sig .tc := ⟨.hbm, 130, rfl⟩
abbrev main_v93 : Ref sig .tc := ⟨.hbm, 131, rfl⟩
abbrev main_v94 : Ref sig .tc := ⟨.hbm, 132, rfl⟩
abbrev main_cst_36 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_37 : Ref sig .tc := ⟨.hbm, 137, rfl⟩
abbrev main_v98 : Ref sig .tc := ⟨.hbm, 138, rfl⟩
abbrev main_v99 : Ref sig .tc := ⟨.hbm, 139, rfl⟩
abbrev main_cst_38 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_39 : Ref sig .tc := ⟨.hbm, 144, rfl⟩
abbrev main_v103 : Ref sig .tc := ⟨.hbm, 145, rfl⟩
abbrev main_v104 : Ref sig .tc := ⟨.hbm, 146, rfl⟩
abbrev main_cst_40 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_41 : Ref sig .tc := ⟨.hbm, 152, rfl⟩
abbrev main_v109 : Ref sig .tc := ⟨.hbm, 153, rfl⟩
abbrev main_v110 : Ref sig .tc := ⟨.hbm, 154, rfl⟩
abbrev main_cst_42 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_43 : Ref sig .tc := ⟨.hbm, 159, rfl⟩
abbrev main_v114 : Ref sig .tc := ⟨.hbm, 160, rfl⟩
abbrev main_v115 : Ref sig .tc := ⟨.hbm, 161, rfl⟩
abbrev main_cst_44 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_45 : Ref sig .tc := ⟨.hbm, 166, rfl⟩
abbrev main_v119 : Ref sig .tc := ⟨.hbm, 167, rfl⟩
abbrev main_v120 : Ref sig .tc := ⟨.hbm, 168, rfl⟩
abbrev main_cst_46 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_47 : Ref sig .tc := ⟨.hbm, 173, rfl⟩
abbrev main_v124 : Ref sig .tc := ⟨.hbm, 174, rfl⟩
abbrev main_v125 : Ref sig .tc := ⟨.hbm, 175, rfl⟩
abbrev main_cst_48 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_49 : Ref sig .tc := ⟨.hbm, 180, rfl⟩
abbrev main_v129 : Ref sig .tc := ⟨.hbm, 181, rfl⟩
abbrev main_v130 : Ref sig .tc := ⟨.hbm, 182, rfl⟩
abbrev main_cst_50 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_51 : Ref sig .tc := ⟨.hbm, 187, rfl⟩
abbrev main_v134 : Ref sig .tc := ⟨.hbm, 188, rfl⟩
abbrev main_v135 : Ref sig .tc := ⟨.hbm, 189, rfl⟩
abbrev main_cst_52 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_53 : Ref sig .tc := ⟨.hbm, 194, rfl⟩
abbrev main_v139 : Ref sig .tc := ⟨.hbm, 195, rfl⟩
abbrev main_v140 : Ref sig .tc := ⟨.hbm, 196, rfl⟩
abbrev main_cst_54 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_55 : Ref sig .tc := ⟨.hbm, 202, rfl⟩
abbrev main_v145 : Ref sig .tc := ⟨.hbm, 203, rfl⟩
abbrev main_v146 : Ref sig .tc := ⟨.hbm, 204, rfl⟩
abbrev main_cst_56 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_57 : Ref sig .tc := ⟨.hbm, 209, rfl⟩
abbrev main_v150 : Ref sig .tc := ⟨.hbm, 210, rfl⟩
abbrev main_v151 : Ref sig .tc := ⟨.hbm, 211, rfl⟩
abbrev main_cst_58 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_59 : Ref sig .tc := ⟨.hbm, 216, rfl⟩
abbrev main_v155 : Ref sig .tc := ⟨.hbm, 217, rfl⟩
abbrev main_v156 : Ref sig .tc := ⟨.hbm, 218, rfl⟩
abbrev main_cst_60 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_61 : Ref sig .tc := ⟨.hbm, 223, rfl⟩
abbrev main_v160 : Ref sig .tc := ⟨.hbm, 224, rfl⟩
abbrev main_v161 : Ref sig .tc := ⟨.hbm, 225, rfl⟩
abbrev main_cst_62 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_cst_63 : Ref sig .tc := ⟨.hbm, 230, rfl⟩
abbrev main_v165 : Ref sig .tc := ⟨.hbm, 231, rfl⟩
abbrev main_v166 : Ref sig .tc := ⟨.hbm, 232, rfl⟩
abbrev main_cst_64 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_65 : Ref sig .tc := ⟨.hbm, 237, rfl⟩
abbrev main_v170 : Ref sig .tc := ⟨.hbm, 238, rfl⟩
abbrev main_v171 : Ref sig .tc := ⟨.hbm, 239, rfl⟩
abbrev main_cst_66 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_cst_67 : Ref sig .tc := ⟨.hbm, 244, rfl⟩
abbrev main_v175 : Ref sig .tc := ⟨.hbm, 245, rfl⟩
abbrev main_v176 : Ref sig .tc := ⟨.hbm, 246, rfl⟩
abbrev main_cst_68 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_cst_69 : Ref sig .tc := ⟨.hbm, 252, rfl⟩
abbrev main_v181 : Ref sig .tc := ⟨.hbm, 253, rfl⟩
abbrev main_v182 : Ref sig .tc := ⟨.hbm, 254, rfl⟩
abbrev main_cst_70 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_cst_71 : Ref sig .tc := ⟨.hbm, 259, rfl⟩
abbrev main_v186 : Ref sig .tc := ⟨.hbm, 260, rfl⟩
abbrev main_v187 : Ref sig .tc := ⟨.hbm, 261, rfl⟩
abbrev main_cst_72 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_cst_73 : Ref sig .tc := ⟨.hbm, 266, rfl⟩
abbrev main_v191 : Ref sig .tc := ⟨.hbm, 267, rfl⟩
abbrev main_v192 : Ref sig .tc := ⟨.hbm, 268, rfl⟩
abbrev main_cst_74 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_cst_75 : Ref sig .tc := ⟨.hbm, 273, rfl⟩
abbrev main_v196 : Ref sig .tc := ⟨.hbm, 274, rfl⟩
abbrev main_v197 : Ref sig .tc := ⟨.hbm, 275, rfl⟩
abbrev main_cst_76 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_cst_77 : Ref sig .tc := ⟨.hbm, 280, rfl⟩
abbrev main_v201 : Ref sig .tc := ⟨.hbm, 281, rfl⟩
abbrev main_v202 : Ref sig .tc := ⟨.hbm, 282, rfl⟩
abbrev main_cst_78 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_cst_79 : Ref sig .tc := ⟨.hbm, 287, rfl⟩
abbrev main_v206 : Ref sig .tc := ⟨.hbm, 288, rfl⟩
abbrev main_v207 : Ref sig .tc := ⟨.hbm, 289, rfl⟩
abbrev main_cst_80 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_cst_81 : Ref sig .tc := ⟨.hbm, 294, rfl⟩
abbrev main_v211 : Ref sig .tc := ⟨.hbm, 295, rfl⟩
abbrev main_v212 : Ref sig .tc := ⟨.hbm, 296, rfl⟩
abbrev main_cst_82 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_cst_83 : Ref sig .tc := ⟨.hbm, 302, rfl⟩
abbrev main_v217 : Ref sig .tc := ⟨.hbm, 303, rfl⟩
abbrev main_v218 : Ref sig .tc := ⟨.hbm, 304, rfl⟩
abbrev main_cst_84 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_cst_85 : Ref sig .tc := ⟨.hbm, 309, rfl⟩
abbrev main_v222 : Ref sig .tc := ⟨.hbm, 310, rfl⟩
abbrev main_v223 : Ref sig .tc := ⟨.hbm, 311, rfl⟩
abbrev main_cst_86 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_cst_87 : Ref sig .tc := ⟨.hbm, 316, rfl⟩
abbrev main_v227 : Ref sig .tc := ⟨.hbm, 317, rfl⟩
abbrev main_v228 : Ref sig .tc := ⟨.hbm, 318, rfl⟩
abbrev main_cst_88 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_cst_89 : Ref sig .tc := ⟨.hbm, 323, rfl⟩
abbrev main_v232 : Ref sig .tc := ⟨.hbm, 324, rfl⟩
abbrev main_v233 : Ref sig .tc := ⟨.hbm, 325, rfl⟩
abbrev main_cst_90 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_cst_91 : Ref sig .tc := ⟨.hbm, 330, rfl⟩
abbrev main_v237 : Ref sig .tc := ⟨.hbm, 331, rfl⟩
abbrev main_v238 : Ref sig .tc := ⟨.hbm, 332, rfl⟩
abbrev main_cst_92 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_cst_93 : Ref sig .tc := ⟨.hbm, 337, rfl⟩
abbrev main_v242 : Ref sig .tc := ⟨.hbm, 338, rfl⟩
abbrev main_v243 : Ref sig .tc := ⟨.hbm, 339, rfl⟩
abbrev main_cst_94 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_cst_95 : Ref sig .tc := ⟨.hbm, 344, rfl⟩
abbrev main_v247 : Ref sig .tc := ⟨.hbm, 345, rfl⟩
abbrev main_v248 : Ref sig .tc := ⟨.hbm, 346, rfl⟩
abbrev main_cst_96 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩

abbrev nD : Nat := 1
abbrev τ : Topo := Topo.v7x

variable {F : FTy → Type} [FloatOps F]

class Facts₀ : Prop where
  slices_S16x224x224x128_S16x32x32x128_0_0_0_0 : S16x224x224x128.Slices ![0, 0, 0, 0] S16x32x32x128
  reducesTo_S16x32x32x128_S16x128_d1_2 : S16x32x32x128.ReducesTo [1, 2] S16x128
  h_S_ : 0 < S_.numel
  bcast_S16x128_S16x1x1x128_0_3 : S16x128.BroadcastsInDim S16x1x1x128 (![0, 3] : Fin 2 → Fin S16x1x1x128.rank)
  bcast_S_S16x1x1x128 : S_.BroadcastsInDim S16x1x1x128 (![] : Fin 0 → Fin S16x1x1x128.rank)
  slices_S16x224x224x128_S16x32x32x128_0_0_32_0 : S16x224x224x128.Slices ![0, 0, 32, 0] S16x32x32x128
  slices_S16x224x224x128_S16x32x32x128_0_0_64_0 : S16x224x224x128.Slices ![0, 0, 64, 0] S16x32x32x128
  slices_S16x224x224x128_S16x32x32x128_0_0_96_0 : S16x224x224x128.Slices ![0, 0, 96, 0] S16x32x32x128
  slices_S16x224x224x128_S16x32x32x128_0_0_128_0 : S16x224x224x128.Slices ![0, 0, 128, 0] S16x32x32x128
  slices_S16x224x224x128_S16x32x32x128_0_0_160_0 : S16x224x224x128.Slices ![0, 0, 160, 0] S16x32x32x128
  slices_S16x224x224x128_S16x32x32x128_0_0_192_0 : S16x224x224x128.Slices ![0, 0, 192, 0] S16x32x32x128
  concatenates_S16x1x1x128_S16x1x1x128_S16x1x1x128_S16x1x1x128_S16x1x1x128_S16x1x1x128_S16x1x1x128_S16x1x7x128_d2 : Shape.Concatenates [S16x1x1x128, S16x1x1x128, S16x1x1x128, S16x1x1x128, S16x1x1x128, S16x1x1x128, S16x1x1x128] S16x1x7x128 2
  slices_S16x224x224x128_S16x32x32x128_0_32_0_0 : S16x224x224x128.Slices ![0, 32, 0, 0] S16x32x32x128
  slices_S16x224x224x128_S16x32x32x128_0_32_32_0 : S16x224x224x128.Slices ![0, 32, 32, 0] S16x32x32x128
  slices_S16x224x224x128_S16x32x32x128_0_32_64_0 : S16x224x224x128.Slices ![0, 32, 64, 0] S16x32x32x128
  slices_S16x224x224x128_S16x32x32x128_0_32_96_0 : S16x224x224x128.Slices ![0, 32, 96, 0] S16x32x32x128
  slices_S16x224x224x128_S16x32x32x128_0_32_128_0 : S16x224x224x128.Slices ![0, 32, 128, 0] S16x32x32x128
  slices_S16x224x224x128_S16x32x32x128_0_32_160_0 : S16x224x224x128.Slices ![0, 32, 160, 0] S16x32x32x128
  slices_S16x224x224x128_S16x32x32x128_0_32_192_0 : S16x224x224x128.Slices ![0, 32, 192, 0] S16x32x32x128
  slices_S16x224x224x128_S16x32x32x128_0_64_0_0 : S16x224x224x128.Slices ![0, 64, 0, 0] S16x32x32x128
  slices_S16x224x224x128_S16x32x32x128_0_64_32_0 : S16x224x224x128.Slices ![0, 64, 32, 0] S16x32x32x128
  slices_S16x224x224x128_S16x32x32x128_0_64_64_0 : S16x224x224x128.Slices ![0, 64, 64, 0] S16x32x32x128
  slices_S16x224x224x128_S16x32x32x128_0_64_96_0 : S16x224x224x128.Slices ![0, 64, 96, 0] S16x32x32x128
  slices_S16x224x224x128_S16x32x32x128_0_64_128_0 : S16x224x224x128.Slices ![0, 64, 128, 0] S16x32x32x128
  slices_S16x224x224x128_S16x32x32x128_0_64_160_0 : S16x224x224x128.Slices ![0, 64, 160, 0] S16x32x32x128
  slices_S16x224x224x128_S16x32x32x128_0_64_192_0 : S16x224x224x128.Slices ![0, 64, 192, 0] S16x32x32x128
  slices_S16x224x224x128_S16x32x32x128_0_96_0_0 : S16x224x224x128.Slices ![0, 96, 0, 0] S16x32x32x128
  slices_S16x224x224x128_S16x32x32x128_0_96_32_0 : S16x224x224x128.Slices ![0, 96, 32, 0] S16x32x32x128
  slices_S16x224x224x128_S16x32x32x128_0_96_64_0 : S16x224x224x128.Slices ![0, 96, 64, 0] S16x32x32x128
  slices_S16x224x224x128_S16x32x32x128_0_96_96_0 : S16x224x224x128.Slices ![0, 96, 96, 0] S16x32x32x128
  slices_S16x224x224x128_S16x32x32x128_0_96_128_0 : S16x224x224x128.Slices ![0, 96, 128, 0] S16x32x32x128
  slices_S16x224x224x128_S16x32x32x128_0_96_160_0 : S16x224x224x128.Slices ![0, 96, 160, 0] S16x32x32x128
  slices_S16x224x224x128_S16x32x32x128_0_96_192_0 : S16x224x224x128.Slices ![0, 96, 192, 0] S16x32x32x128
  slices_S16x224x224x128_S16x32x32x128_0_128_0_0 : S16x224x224x128.Slices ![0, 128, 0, 0] S16x32x32x128
  slices_S16x224x224x128_S16x32x32x128_0_128_32_0 : S16x224x224x128.Slices ![0, 128, 32, 0] S16x32x32x128
  slices_S16x224x224x128_S16x32x32x128_0_128_64_0 : S16x224x224x128.Slices ![0, 128, 64, 0] S16x32x32x128
  slices_S16x224x224x128_S16x32x32x128_0_128_96_0 : S16x224x224x128.Slices ![0, 128, 96, 0] S16x32x32x128
  slices_S16x224x224x128_S16x32x32x128_0_128_128_0 : S16x224x224x128.Slices ![0, 128, 128, 0] S16x32x32x128
  slices_S16x224x224x128_S16x32x32x128_0_128_160_0 : S16x224x224x128.Slices ![0, 128, 160, 0] S16x32x32x128
  slices_S16x224x224x128_S16x32x32x128_0_128_192_0 : S16x224x224x128.Slices ![0, 128, 192, 0] S16x32x32x128
  slices_S16x224x224x128_S16x32x32x128_0_160_0_0 : S16x224x224x128.Slices ![0, 160, 0, 0] S16x32x32x128
  slices_S16x224x224x128_S16x32x32x128_0_160_32_0 : S16x224x224x128.Slices ![0, 160, 32, 0] S16x32x32x128
  slices_S16x224x224x128_S16x32x32x128_0_160_64_0 : S16x224x224x128.Slices ![0, 160, 64, 0] S16x32x32x128
  slices_S16x224x224x128_S16x32x32x128_0_160_96_0 : S16x224x224x128.Slices ![0, 160, 96, 0] S16x32x32x128
  slices_S16x224x224x128_S16x32x32x128_0_160_128_0 : S16x224x224x128.Slices ![0, 160, 128, 0] S16x32x32x128
  slices_S16x224x224x128_S16x32x32x128_0_160_160_0 : S16x224x224x128.Slices ![0, 160, 160, 0] S16x32x32x128
  slices_S16x224x224x128_S16x32x32x128_0_160_192_0 : S16x224x224x128.Slices ![0, 160, 192, 0] S16x32x32x128
  slices_S16x224x224x128_S16x32x32x128_0_192_0_0 : S16x224x224x128.Slices ![0, 192, 0, 0] S16x32x32x128
  slices_S16x224x224x128_S16x32x32x128_0_192_32_0 : S16x224x224x128.Slices ![0, 192, 32, 0] S16x32x32x128
  slices_S16x224x224x128_S16x32x32x128_0_192_64_0 : S16x224x224x128.Slices ![0, 192, 64, 0] S16x32x32x128
  slices_S16x224x224x128_S16x32x32x128_0_192_96_0 : S16x224x224x128.Slices ![0, 192, 96, 0] S16x32x32x128
  slices_S16x224x224x128_S16x32x32x128_0_192_128_0 : S16x224x224x128.Slices ![0, 192, 128, 0] S16x32x32x128
  slices_S16x224x224x128_S16x32x32x128_0_192_160_0 : S16x224x224x128.Slices ![0, 192, 160, 0] S16x32x32x128
  slices_S16x224x224x128_S16x32x32x128_0_192_192_0 : S16x224x224x128.Slices ![0, 192, 192, 0] S16x32x32x128
  concatenates_S16x1x7x128_S16x1x7x128_S16x1x7x128_S16x1x7x128_S16x1x7x128_S16x1x7x128_S16x1x7x128_S16x7x7x128_d1 : Shape.Concatenates [S16x1x7x128, S16x1x7x128, S16x1x7x128, S16x1x7x128, S16x1x7x128, S16x1x7x128, S16x1x7x128] S16x7x7x128 1

variable [Facts₀]

class Facts : Prop extends Facts₀ where

variable [Facts]
-- ==== Proof.PoolSpec.lean ====
/-
  Average pooling of a [16, 224, 224, 128] array (batch, height, width, channel) over the 7 x 7 grid of
  non-overlapping 32 x 32 windows: entry (b, i, j, c) of the result is the sum of the 1024 entries
  (b, 32 i + h, 32 j + w, c), h, w < 32, times 1/1024. Stated on the extended reals, where addition is
  commutative and associative (so the order and grouping of the 1024 terms do not matter) and where the
  quotient by the real 1024 is the product with the real 1/1024 at every value, infinite ones included.
  The three float patterns the two programs spell are read here, once.
-/
import Idealize.ShloMosaic.PureOps.Ideal
import Idealize.ShloMosaic.PureOps.Ideal.Laws
import Idealize.ShloMosaic.Lib.ValueIdx

noncomputable section

open scoped BigOperators

namespace Cert.Pool

open Idealize.ShloMosaic Idealize.ShloMosaic.ValueIdx

/-- Position `32 i + h` on an axis of extent 224: place `h` of window `i`. -/
def binPos (i : Fin 7) (h : Fin 32) : Fin 224 := ⟨32 * i.val + h.val, by omega⟩

theorem binPos_val (i : Fin 7) (h : Fin 32) : (binPos i h).val = 32 * i.val + h.val := rfl

/-- The sum of window (i, j) of image `b`, channel `c`: rows first, then columns. -/
def binSum (x : (⟨4, ![16, 224, 224, 128]⟩ : Shape).Idx → EReal) (b : Fin 16) (i j : Fin 7) (c : Fin 128) : EReal :=
  ∑ h : Fin 32, ∑ w : Fin 32, x (ix4 b (binPos i h) (binPos j w) c)

/-- The pooled array: each window's sum times 1/1024. -/
def pool (x : (⟨4, ![16, 224, 224, 128]⟩ : Shape).Idx → EReal) : (⟨4, ![16, 7, 7, 128]⟩ : Shape).Idx → EReal :=
  fun o => binSum x (o 0) (o 1) (o 2) (o 3) * ((1 / 1024 : ℝ) : EReal)

/-- The window's sum taken columns first. -/
theorem binSum_comm (x : (⟨4, ![16, 224, 224, 128]⟩ : Shape).Idx → EReal) (b : Fin 16) (i j : Fin 7) (c : Fin 128) :
    binSum x b i j c = ∑ w : Fin 32, ∑ h : Fin 32, x (ix4 b (binPos i h) (binPos j w) c) :=
  Finset.sum_comm

/-- The pattern of `2^-10` denotes the real 1/1024. -/
theorem ofBits_inv1024 : Ideal.ofBits .f32 0x3A800000#32 = ((1 / 1024 : ℝ) : EReal) := by
  simp [Ideal.ofBits, Ideal.ieee, -EReal.coe_mul]; norm_num

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `+0.0` denotes 0. -/
theorem ofBits_zero : Ideal.ofBits .f32 0x00000000#32 = 0 := Ideal.ofBits_zero_f32

/-- Dividing by the real 1024 is multiplying by the real 1/1024, at every extended real. -/
theorem div_1024 (s : EReal) : Ideal.div s ((1024 : ℝ) : EReal) = s * ((1 / 1024 : ℝ) : EReal) :=
  Ideal.div_coe (by norm_num) s

/-- A sum of 32 terms accumulated one by one from zero, in order, is the sum over `Fin 32`. -/
theorem chain32 (g : Fin 32 → EReal) :
    0 + g 0 + g 1 + g 2 + g 3 + g 4 + g 5 + g 6 + g 7 + g 8 + g 9 + g 10 + g 11 + g 12 + g 13 + g 14 + g 15
      + g 16 + g 17 + g 18 + g 19 + g 20 + g 21 + g 22 + g 23 + g 24 + g 25 + g 26 + g 27 + g 28 + g 29 + g 30 + g 31
      = ∑ h : Fin 32, g h := by
  simp only [Fin.sum_univ_castSucc, Fin.sum_univ_zero]
  rfl

end Cert.Pool

end
-- ==== Proof.BlockSum.lean ====
/-
  What the kernel body leaves in its output block, read at an index: the block's entry (b, 0, j, c) is the sum over
  the 32 columns w of window j and the 32 rows h of the input block, of the input block at (b, h, 32 j + w, c),
  times 1/1024.

  The body adds the 32 rows of the input block, one by one, to a zero array of shape [4, 224, 128]; regroups the
  column axis 224 = 7 x 32 as (window, place); sums over the place; and multiplies by the float 2^-10. Each of
  these is read at an index below (a load of one row, a dropped unit axis, a regrouped axis, a sum over one axis),
  first for arbitrary rows and then for the rows of the input block.
-/
import proofs.«170913_j48146583388556_2_alg».proof.Proof.Gen.KernelIdeal.Value
import proofs.«170913_j48146583388556_2_alg».proof.Proof.PoolSpec
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The kept coordinates of a block index (b, u, j, c) are (b, j, c). -/
theorem keep_ix4 (b : Fin 4) (u : Fin 1) (j : Fin 7) (c : Fin 128) :
    Cert.KernelIdeal.Value.ix1_0 (ix4 b u j c) = ix3 b j c := by
  funext a; match a with | ⟨0, _⟩ => rfl | ⟨1, _⟩ => rfl | ⟨2, _⟩ => rfl

/-- A sum over the axis of extent 32 of a [4, 7, 32, 128] array, at (b, j, c), is the sum over k of the entries (b, j, k, c). -/
theorem lane_sum (src : FVec Ideal S4x7x32x128 .f32) (h : S4x7x32x128.Reduces [2] S4x7x128) (hφ : FKind.Formats .f32)
    (hacc : (0x00000000#32 : BitVec 32) = FKind.add.neutral .f32 hφ) (b : Fin 4) (j : Fin 7) (c : Fin 128) :
    multiReduction .add [2] S4x7x128 src 0x00000000#32 h hφ hacc (ix3 b j c) = ∑ k : Fin 32, src (ix4 b j k c) := by
  refine (Ideal.multiReduction_add_single src _ h hφ hacc (ix3 b j c)).trans ?_
  refine Finset.sum_congr rfl fun k _ => congrArg src ?_
  funext a; match a with | ⟨0, _⟩ => rfl | ⟨1, _⟩ => rfl | ⟨2, _⟩ => rfl | ⟨3, _⟩ => rfl

/-- The [4, 224, 128] array regrouped as [4, 7, 32, 128]: entry (b, j, k, c) is entry (b, 32 j + k, c). -/
theorem regroup_apply {α : Type} (x : S4x224x128.Idx → α) (h : S4x224x128.ShapeCasts S4x7x32x128) (b : Fin 4) (j : Fin 7) (k : Fin 32) (c : Fin 128) :
    shapeCast S4x7x32x128 x h (ix4 b j k c) = x (ix3 b (Cert.Pool.binPos j k) c) := by
  refine shapeCast_apply x h _ _ ?_
  rw [Shape.rowMajor_val_three, Shape.rowMajor_val_four]
  show (b.val * 224 + (32 * j.val + k.val)) * 128 + c.val = ((b.val * 7 + j.val) * 32 + k.val) * 128 + c.val
  omega

/-- The [4, 1, 224, 128] array with its unit axis dropped: entry (b, w, c) is entry (b, 0, w, c). -/
theorem row_apply {α : Type} (x : S4x1x224x128.Idx → α) (h : S4x1x224x128.ShapeCasts S4x224x128) (b : Fin 4) (w : Fin 224) (c : Fin 128) :
    shapeCast S4x224x128 x h (ix3 b w c) = x (ix4 b 0 w c) := by
  refine shapeCast_apply x h _ _ ?_
  rw [Shape.rowMajor_val_three, Shape.rowMajor_val_four]
  show ((b.val * 1 + 0) * 224 + w.val) * 128 + c.val = (b.val * 224 + w.val) * 128 + c.val
  omega

/-- Row h of the [4, 32, 224, 128] block, read at (b, 0, w, c), is the block at (b, h, w, c). -/
theorem ld_row {Val : EltTy → Type} {e : EltTy} (x0 : S4x32x224x128.Idx → Val e) (h : ℕ) (hh : h < 32)
    (inb : ∀ a, (![0, h, 0, 0] : Fin 4 → ℕ) a + S4x1x224x128.size a ≤ S4x32x224x128.size a) (b : Fin 4) (w : Fin 224) (c : Fin 128) :
    View.ld x0 (Rect.unit (s := S4x32x224x128) ![0, h, 0, 0] S4x1x224x128.size inb) (ix4 b 0 w c) = x0 (ix4 b ⟨h, hh⟩ w c) := by
  refine congrArg x0 (funext fun a => Fin.ext ?_)
  match a with
  | ⟨0, _⟩ => show 0 + 1 * b.val = b.val; omega
  | ⟨1, _⟩ => show h + 1 * 0 = h; omega
  | ⟨2, _⟩ => show 0 + 1 * w.val = w.val; omega
  | ⟨3, _⟩ => show 0 + 1 * c.val = c.val; omega

/-- Thirty-two terms accumulated one by one from zero, each equal to a value of one family, sum to the family's sum. -/
theorem chain32_of (g : Fin 32 → EReal) (a0 : EReal) (a1 : EReal) (a2 : EReal) (a3 : EReal) (a4 : EReal) (a5 : EReal) (a6 : EReal) (a7 : EReal) (a8 : EReal) (a9 : EReal) (a10 : EReal) (a11 : EReal) (a12 : EReal) (a13 : EReal) (a14 : EReal) (a15 : EReal) (a16 : EReal) (a17 : EReal) (a18 : EReal) (a19 : EReal) (a20 : EReal) (a21 : EReal) (a22 : EReal) (a23 : EReal) (a24 : EReal) (a25 : EReal) (a26 : EReal) (a27 : EReal) (a28 : EReal) (a29 : EReal) (a30 : EReal) (a31 : EReal)
    (h0 : a0 = g 0) (h1 : a1 = g 1) (h2 : a2 = g 2) (h3 : a3 = g 3) (h4 : a4 = g 4) (h5 : a5 = g 5) (h6 : a6 = g 6) (h7 : a7 = g 7) (h8 : a8 = g 8) (h9 : a9 = g 9) (h10 : a10 = g 10) (h11 : a11 = g 11) (h12 : a12 = g 12) (h13 : a13 = g 13) (h14 : a14 = g 14) (h15 : a15 = g 15) (h16 : a16 = g 16) (h17 : a17 = g 17) (h18 : a18 = g 18) (h19 : a19 = g 19) (h20 : a20 = g 20) (h21 : a21 = g 21) (h22 : a22 = g 22) (h23 : a23 = g 23) (h24 : a24 = g 24) (h25 : a25 = g 25) (h26 : a26 = g 26) (h27 : a27 = g 27) (h28 : a28 = g 28) (h29 : a29 = g 29) (h30 : a30 = g 30) (h31 : a31 = g 31) :
    0 + a0 + a1 + a2 + a3 + a4 + a5 + a6 + a7 + a8 + a9 + a10 + a11 + a12 + a13 + a14 + a15 + a16 + a17 + a18 + a19 + a20 + a21 + a22 + a23 + a24 + a25 + a26 + a27 + a28 + a29 + a30 + a31 = ∑ h : Fin 32, g h := by
  subst h0 h1 h2 h3 h4 h5 h6 h7 h8 h9 h10 h11 h12 h13 h14 h15 h16 h17 h18 h19 h20 h21 h22 h23 h24 h25 h26 h27 h28 h29 h30 h31
  exact Cert.Pool.chain32 g

/-- The body's arithmetic over arbitrary rows P0 … P31 (each [4, 1, 224, 128]), at the block index (b, u, j, c): the
    32 rows added one by one to zero give acc(b, w, c); regrouping the column w as (j, k) with w = 32 j + k and summing
    over k, then scaling by 2^-10, gives the sum over the 32 columns of window j of the accumulated rows, times 1/1024. -/
theorem body_apply (P0 : Vec Ideal S4x1x224x128 .f32) (P1 : Vec Ideal S4x1x224x128 .f32) (P2 : Vec Ideal S4x1x224x128 .f32) (P3 : Vec Ideal S4x1x224x128 .f32) (P4 : Vec Ideal S4x1x224x128 .f32) (P5 : Vec Ideal S4x1x224x128 .f32) (P6 : Vec Ideal S4x1x224x128 .f32) (P7 : Vec Ideal S4x1x224x128 .f32) (P8 : Vec Ideal S4x1x224x128 .f32) (P9 : Vec Ideal S4x1x224x128 .f32) (P10 : Vec Ideal S4x1x224x128 .f32) (P11 : Vec Ideal S4x1x224x128 .f32) (P12 : Vec Ideal S4x1x224x128 .f32) (P13 : Vec Ideal S4x1x224x128 .f32) (P14 : Vec Ideal S4x1x224x128 .f32) (P15 : Vec Ideal S4x1x224x128 .f32) (P16 : Vec Ideal S4x1x224x128 .f32) (P17 : Vec Ideal S4x1x224x128 .f32) (P18 : Vec Ideal S4x1x224x128 .f32) (P19 : Vec Ideal S4x1x224x128 .f32) (P20 : Vec Ideal S4x1x224x128 .f32) (P21 : Vec Ideal S4x1x224x128 .f32) (P22 : Vec Ideal S4x1x224x128 .f32) (P23 : Vec Ideal S4x1x224x128 .f32) (P24 : Vec Ideal S4x1x224x128 .f32) (P25 : Vec Ideal S4x1x224x128 .f32) (P26 : Vec Ideal S4x1x224x128 .f32) (P27 : Vec Ideal S4x1x224x128 .f32) (P28 : Vec Ideal S4x1x224x128 .f32) (P29 : Vec Ideal S4x1x224x128 .f32) (P30 : Vec Ideal S4x1x224x128 .f32) (P31 : Vec Ideal S4x1x224x128 .f32)
    (b : Fin 4) (u : Fin 1) (j : Fin 7) (c : Fin 128) :
    Cert.KernelIdeal.Value.E1 (F := Ideal) P0 P1 P2 P3 P4 P5 P6 P7 P8 P9 P10 P11 P12 P13 P14 P15 P16 P17 P18 P19 P20 P21 P22 P23 P24 P25 P26 P27 P28 P29 P30 P31 (ix4 b u j c)
      = (∑ k : Fin 32, (0 + P0 (ix4 b 0 (Cert.Pool.binPos j k) c) + P1 (ix4 b 0 (Cert.Pool.binPos j k) c) + P2 (ix4 b 0 (Cert.Pool.binPos j k) c) + P3 (ix4 b 0 (Cert.Pool.binPos j k) c) + P4 (ix4 b 0 (Cert.Pool.binPos j k) c) + P5 (ix4 b 0 (Cert.Pool.binPos j k) c) + P6 (ix4 b 0 (Cert.Pool.binPos j k) c) + P7 (ix4 b 0 (Cert.Pool.binPos j k) c) + P8 (ix4 b 0 (Cert.Pool.binPos j k) c) + P9 (ix4 b 0 (Cert.Pool.binPos j k) c) + P10 (ix4 b 0 (Cert.Pool.binPos j k) c) + P11 (ix4 b 0 (Cert.Pool.binPos j k) c) + P12 (ix4 b 0 (Cert.Pool.binPos j k) c) + P13 (ix4 b 0 (Cert.Pool.binPos j k) c) + P14 (ix4 b 0 (Cert.Pool.binPos j k) c) + P15 (ix4 b 0 (Cert.Pool.binPos j k) c) + P16 (ix4 b 0 (Cert.Pool.binPos j k) c) + P17 (ix4 b 0 (Cert.Pool.binPos j k) c) + P18 (ix4 b 0 (Cert.Pool.binPos j k) c) + P19 (ix4 b 0 (Cert.Pool.binPos j k) c) + P20 (ix4 b 0 (Cert.Pool.binPos j k) c) + P21 (ix4 b 0 (Cert.Pool.binPos j k) c) + P22 (ix4 b 0 (Cert.Pool.binPos j k) c) + P23 (ix4 b 0 (Cert.Pool.binPos j k) c) + P24 (ix4 b 0 (Cert.Pool.binPos j k) c) + P25 (ix4 b 0 (Cert.Pool.binPos j k) c) + P26 (ix4 b 0 (Cert.Pool.binPos j k) c) + P27 (ix4 b 0 (Cert.Pool.binPos j k) c) + P28 (ix4 b 0 (Cert.Pool.binPos j k) c) + P29 (ix4 b 0 (Cert.Pool.binPos j k) c) + P30 (ix4 b 0 (Cert.Pool.binPos j k) c) + P31 (ix4 b 0 (Cert.Pool.binPos j k) c))) * ((1 / 1024 : ℝ) : EReal) := by
  unfold Cert.KernelIdeal.Value.E1
  refine Eq.trans (Ideal.mulf_def _ _) ?_
  refine congrArg₂ (fun s t : EReal => s * t) ?_ Cert.Pool.ofBits_inv1024
  refine (congrArg _ (keep_ix4 b u j c)).trans ?_
  refine (lane_sum _ _ _ _ b j c).trans ?_
  refine Finset.sum_congr rfl fun k _ => ?_
  refine (regroup_apply _ _ b j k c).trans ?_
  simp only [addf_apply, broadcast_apply, row_apply, Ideal.ofBits_def, Cert.Pool.ofBits_zero]

/-- The body's output block at (b, u, j, c): over the 32 columns w of window j, the sum over the 32 rows h of the
    input block at (b, h, 32 j + w, c), times 1/1024. -/
theorem out_apply (x0 : Vec Ideal S4x32x224x128 .f32) (b : Fin 4) (u : Fin 1) (j : Fin 7) (c : Fin 128) :
    out0_1 (F := Ideal) x0 (ix4 b u j c)
      = (∑ w : Fin 32, ∑ h : Fin 32, x0 (ix4 b h (Cert.Pool.binPos j w) c)) * ((1 / 1024 : ℝ) : EReal) := by
  unfold out0_1
  refine (Cert.KernelIdeal.Value.canon1_eq _ _ _ _ _ _ _ _ _ _ _ _ _ _ _ _ _ _ _ _ _ _ _ _ _ _ _ _ _ _ _ _ (ix4 b u j c)).trans ?_
  refine (body_apply _ _ _ _ _ _ _ _ _ _ _ _ _ _ _ _ _ _ _ _ _ _ _ _ _ _ _ _ _ _ _ _ b u j c).trans ?_
  refine congrArg (fun s : EReal => s * ((1 / 1024 : ℝ) : EReal)) (Finset.sum_congr rfl fun k _ => ?_)
  exact chain32_of (fun h => x0 (ix4 b h (Cert.Pool.binPos j k) c)) _ _ _ _ _ _ _ _ _ _ _ _ _ _ _ _ _ _ _ _ _ _ _ _ _ _ _ _ _ _ _ _
    (ld_row x0 0 (by omega) _ b _ c)
    (ld_row x0 1 (by omega) _ b _ c)
    (ld_row x0 2 (by omega) _ b _ c)
    (ld_row x0 3 (by omega) _ b _ c)
    (ld_row x0 4 (by omega) _ b _ c)
    (ld_row x0 5 (by omega) _ b _ c)
    (ld_row x0 6 (by omega) _ b _ c)
    (ld_row x0 7 (by omega) _ b _ c)
    (ld_row x0 8 (by omega) _ b _ c)
    (ld_row x0 9 (by omega) _ b _ c)
    (ld_row x0 10 (by omega) _ b _ c)
    (ld_row x0 11 (by omega) _ b _ c)
    (ld_row x0 12 (by omega) _ b _ c)
    (ld_row x0 13 (by omega) _ b _ c)
    (ld_row x0 14 (by omega) _ b _ c)
    (ld_row x0 15 (by omega) _ b _ c)
    (ld_row x0 16 (by omega) _ b _ c)
    (ld_row x0 17 (by omega) _ b _ c)
    (ld_row x0 18 (by omega) _ b _ c)
    (ld_row x0 19 (by omega) _ b _ c)
    (ld_row x0 20 (by omega) _ b _ c)
    (ld_row x0 21 (by omega) _ b _ c)
    (ld_row x0 22 (by omega) _ b _ c)
    (ld_row x0 23 (by omega) _ b _ c)
    (ld_row x0 24 (by omega) _ b _ c)
    (ld_row x0 25 (by omega) _ b _ c)
    (ld_row x0 26 (by omega) _ b _ c)
    (ld_row x0 27 (by omega) _ b _ c)
    (ld_row x0 28 (by omega) _ b _ c)
    (ld_row x0 29 (by omega) _ b _ c)
    (ld_row x0 30 (by omega) _ b _ c)
    (ld_row x0 31 (by omega) _ b _ c)

end Cert.KernelIdeal.BlockValue

end
-- ==== Proof.PoolArray.lean ====
/-
  From blocks to the array. Grid point (bi, oh) of the 4 x 7 grid reads block (bi, oh, 0, 0) of the argument in units
  of [4, 32, 224, 128] and writes block (bi, oh, 0, 0) of the result in units of [4, 1, 7, 128]. What it writes is
  that block of the pooled array; the 28 result blocks cover the result array; so after the run the result array is
  the pooled array of the argument.
-/
import proofs.«170913_j48146583388556_2_alg».proof.Proof.Gen.KernelIdeal.Value
import proofs.«170913_j48146583388556_2_alg».proof.Proof.PoolSpec
import proofs.«170913_j48146583388556_2_alg».proof.Proof.BlockSum
import Idealize.ShloMosaic.Lib.ValueIdx
import Idealize.ShloMosaic.Lib.Pipeline.Value

noncomputable section

open scoped BigOperators

namespace Cert.KernelIdeal.ArrayValue

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-- The two index maps over the 28 grid points (bi, oh): the input block is (bi, oh, 0, 0) in units of
    [4, 32, 224, 128], the output block (bi, oh, 0, 0) in units of [4, 1, 7, 128]. -/
theorem idx_facts : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 3 ∧ win0_1.index t (1 : Fin 4) ≤ 6 :=
  (by decide +kernel : ∀ t : Fin grid0.N, _)

/-- Every output block (q0, q1, 0, 0) is some grid point's. -/
theorem idx_onto : ∀ (q0 : Fin 4) (q1 : Fin 7), ∃ t : Fin cfg0.N, win0_1.index t = ![q0.val, q1.val, 0, 0] :=
  (by decide +kernel : ∀ (q0 : Fin 4) (q1 : Fin 7), ∃ t : Fin grid0.N, win0_1.index t = ![q0.val, q1.val, 0, 0])

/-- What grid point `t` writes back is block `t` of the pooled array: entry (b, 0, j, c) of the block is the window
    sum of the input block, whose entry (b, h, w, c) is the image's at (4 bi + b, 32 oh + h, w, c). -/
theorem flushed_eq (c : Dev nD) (t : Fin cfg0.N) :
    (dats m 0 c).flushed 1 t = ((cfg0.win 1).blk t).view.read (Elt Ideal) (Cert.Pool.pool (V m c main_arg0)) := by
  rw [flushed1]
  funext y
  obtain ⟨b, u, j, ch, rfl⟩ : ∃ (b : Fin 4) (u : Fin 1) (j : Fin 7) (ch : Fin 128), y = ix4 b u j ch :=
    ⟨y 0, y 1, y 2, y 3, eq_ix4 y⟩
  show out0_1 (iblk m c 0 t) (ix4 b u j ch) = Cert.Pool.pool (V m c main_arg0) (((cfg0.win 1).blk t).view.emb (ix4 b u j ch))
  refine (Cert.KernelIdeal.BlockValue.out_apply (iblk m c 0 t) b u j ch).trans ?_
  obtain ⟨e0, e1, e2, e3, e4, e5, e6, e7⟩ := idx_facts t
  refine Eq.trans ?_ (congrArg (· * ((1 / 1024 : ℝ) : EReal)) (Cert.Pool.binSum_comm (V m c main_arg0) _ _ _ _)).symm
  refine congrArg (· * ((1 / 1024 : ℝ) : EReal)) ?_
  refine Finset.sum_congr rfl fun w _ => Finset.sum_congr rfl fun h _ => ?_
  show V m c main_arg0 (((cfg0.win 0).blk t).view.emb (ix4 b h (Cert.Pool.binPos j w) ch)) = V m c main_arg0 _
  refine congrArg (V m c main_arg0) ?_
  funext a; apply Fin.ext
  have hb : b.val < 4 := b.isLt
  have hu : u.val < 1 := u.isLt
  have hj : j.val < 7 := j.isLt
  have hw : w.val < 32 := w.isLt
  have hh : h.val < 32 := h.isLt
  match a with
  | ⟨0, _⟩ => show win0_0.index t (0 : Fin 4) * 4 + 1 * b.val = win0_1.index t (0 : Fin 4) * 4 + 1 * b.val; omega
  | ⟨1, _⟩ => show win0_0.index t (1 : Fin 4) * 32 + 1 * h.val = 32 * (win0_1.index t (1 : Fin 4) * 1 + 1 * u.val) + h.val; omega
  | ⟨2, _⟩ => show win0_0.index t (2 : Fin 4) * 224 + 1 * (32 * j.val + w.val) = 32 * (win0_1.index t (2 : Fin 4) * 7 + 1 * j.val) + w.val; omega
  | ⟨3, _⟩ => show win0_0.index t (3 : Fin 4) * 128 + 1 * ch.val = win0_1.index t (3 : Fin 4) * 128 + 1 * ch.val; omega

/-- An index of the result array is in point `t`'s block iff each coordinate is in the block's range on its axis. -/
theorem mem_blk (t : Fin cfg0.N) (i : S16x7x7x128.Idx) :
    i ∈ ((cfg0.win 1).blk t).view.set ↔ ∀ a : Fin 4, win0_1.index t a * S4x1x7x128.size a ≤ (i a).val
      ∧ (i a).val < win0_1.index t a * S4x1x7x128.size a + S4x1x7x128.size a := by
  show i ∈ ((View.whole main_v0).slice (win0_1.rect t)).set ↔ _
  rw [View.set_slice_whole, Rect.mem_set_unit]
  exact Iff.rfl

/-- The 28 output blocks cover the result array: entry (n, i, j, c) lies in block (n / 4, i). -/
theorem covered (i : S16x7x7x128.Idx) :
    ∃ t : Fin cfg0.N, (cfg0.win 1).flush t = true ∧ i ∈ ((cfg0.win 1).blk t).view.set := by
  have hi0 : (i 0).val < 16 := (i 0).isLt
  have hi1 : (i 1).val < 7 := (i 1).isLt
  have hi2 : (i 2).val < 7 := (i 2).isLt
  have hi3 : (i 3).val < 128 := (i 3).isLt
  obtain ⟨t, ht⟩ := idx_onto ⟨(i 0).val / 4, by omega⟩ ⟨(i 1).val, by omega⟩
  have q0 : win0_1.index t (0 : Fin 4) = (i 0).val / 4 := congrFun ht 0
  have q1 : win0_1.index t (1 : Fin 4) = (i 1).val := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 4 ≤ (i 0).val ∧ (i 0).val < win0_1.index t (0 : Fin 4) * 4 + 4; omega
  | ⟨1, _⟩ => show win0_1.index t (1 : Fin 4) * 1 ≤ (i 1).val ∧ (i 1).val < win0_1.index t (1 : Fin 4) * 1 + 1; omega
  | ⟨2, _⟩ => show win0_1.index t (2 : Fin 4) * 7 ≤ (i 2).val ∧ (i 2).val < win0_1.index t (2 : Fin 4) * 7 + 7; omega
  | ⟨3, _⟩ => show win0_1.index t (3 : Fin 4) * 128 ≤ (i 3).val ∧ (i 3).val < win0_1.index t (3 : Fin 4) * 128 + 128; omega

/-- The result array after the run is the pooled array of the argument as launched. -/
theorem final (c : Dev nD) :
    (dats m 0 c).arrAt 1 cfg0.N = Cert.Pool.pool (m ((c : Thread nD τ).loc main_arg0)) :=
  (dats m 0 c).arrAt_eq_of_cover 1 (Cert.Pool.pool (V m c main_arg0)) (fun t _ => flushed_eq m c t) covered

/-- The kernel's run: the result is the pooled array of the argument, the argument unchanged. -/
theorem run : θ_run defs (onTc (τ := τ) (main (F := Ideal))) ⟨m, fun _ => 0, ρ⟩ fun r => ∀ c : Dev nD,
      r.2.mem ((c : Thread nD τ).loc main_v0) = Cert.Pool.pool (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.RefPool.lean ====
/-
  The reference's result, a 7 x 7 arrangement of window means laid side by side, is the pooled array.
-/
import proofs.«170913_j48146583388556_2_alg».proof.Proof.Gen.ReferenceIdeal.Run
import proofs.«170913_j48146583388556_2_alg».proof.Proof.PoolSpec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.StableHlo
  Idealize.ShloMosaic.ValueIdx

/-- Dropping the two middle coordinates of an index of a [16, 32, 32, 128] array gives (b, c) exactly when its outer
    coordinates are b and c. -/
theorem drop_mid_eq_iff (hr : S16x32x32x128.ReducesTo [1, 2] S16x128) (k : S16x32x32x128.Idx) (b : Fin 16) (c : Fin 128) :
    hr.drop k = ix2 b c ↔ ((k 0).val = b.val ∧ (k 3).val = c.val) := by
  have e0 : ((hr.drop k 0 : Fin _) : Nat) = (k 0).val := Shape.ReducesTo.drop_apply_val_of_eq hr k 0 0
  have e1 : ((hr.drop k 1 : Fin _) : Nat) = (k 3).val := Shape.ReducesTo.drop_apply_val_of_eq hr k 1 3
  constructor
  · intro h
    rw [h] at e0 e1
    exact ⟨e0.symm, e1.symm⟩
  · rintro ⟨h0, h3⟩
    funext a
    match a with
    | ⟨0, _⟩ => exact Fin.ext (e0.trans h0)
    | ⟨1, _⟩ => exact Fin.ext (e1.trans h3)

/-- A sum over the two middle axes of a [16, 32, 32, 128] array, read at (b, c): the initial value plus the double sum
    over the two removed coordinates. -/
theorem hostReduceAdd_mid (hr : S16x32x32x128.ReducesTo [1, 2] S16x128) (y : S16x32x32x128.Idx → EReal) (init : EReal)
    (b : Fin 16) (c : Fin 128) :
    Ideal.hostReduceAdd hr y init (ix2 b c) = init + ∑ h : Fin 32, ∑ w : Fin 32, y (ix4 b h w c) := by
  unfold Ideal.hostReduceAdd
  congr 1
  rw [← Fintype.sum_prod_type' (f := fun (h : Fin 32) (w : Fin 32) => y (ix4 b h w c))]
  have back : ∀ k : S16x32x32x128.Idx, hr.drop k = ix2 b c → ix4 b (k 1) (k 2) c = k := by
    intro k hk
    obtain ⟨h0, h3⟩ := (drop_mid_eq_iff hr k b c).1 hk
    have hb : b = k 0 := Fin.ext h0.symm
    have hc : c = k 3 := Fin.ext h3.symm
    rw [hb, hc]
    exact (eq_ix4 k).symm
  refine Finset.sum_nbij' (fun k => ((k 1 : Fin 32), (k 2 : Fin 32))) (fun p => ix4 b p.1 p.2 c) ?_ ?_ ?_ ?_ ?_
  · intro k _; exact Finset.mem_univ _
  · intro p _
    rw [Finset.mem_filter]
    exact ⟨Finset.mem_univ _, (drop_mid_eq_iff hr _ b c).2 ⟨rfl, rfl⟩⟩
  · intro k hk
    rw [Finset.mem_filter] at hk
    exact back k hk.2
  · intro p _; rfl
  · intro k hk
    rw [Finset.mem_filter] at hk
    exact congrArg y (back k hk.2).symm

/-- The pooled array at the index (b, i, j, c). -/
theorem pool_ix4 (x : S16x224x224x128.Idx → EReal) (b : Fin 16) (i j : Fin 7) (c : Fin 128) :
    Cert.Pool.pool x (ix4 b i j c) = Cert.Pool.binSum x b i j c * ((1 / 1024 : ℝ) : EReal) := rfl

/-- One window's mean as the reference spells it — the 32 x 32 slice at offsets (oh, ow) summed over its two middle axes
    from zero, laid out as a [16, 1, 1, 128] array and divided by the constant 1024 — is the pooled array at window
    (i, j), when the offsets are 32 i and 32 j. -/
theorem bin_apply (x : FVec Ideal S16x224x224x128 .f32) (i j : Fin 7) (oh ow : Nat)
    (hoh : oh = 32 * i.val) (how : ow = 32 * j.val)
    (hs : S16x224x224x128.Slices ![0, oh, ow, 0] S16x32x32x128)
    (hr : S16x32x32x128.ReducesTo [1, 2] S16x128) (hu : 0 < S_.numel)
    (hb : S16x128.BroadcastsInDim S16x1x1x128 (![0, 3] : Fin 2 → Fin S16x1x1x128.rank))
    (hb0 : S_.BroadcastsInDim S16x1x1x128 (![] : Fin 0 → Fin S16x1x1x128.rank))
    (b : Fin 16) (c : Fin 128) :
    Host.divf (F := Ideal)
        (broadcastInDim S16x1x1x128 ![0, 3] hb
          (Host.reduceAdd (F := Ideal) (extractStridedSlice S16x32x32x128 ![0, oh, ow, 0] x hs)
            (constant (F := Ideal) S_ .f32 0x00000000#32) hr hu))
        (broadcastInDim S16x1x1x128 ![] hb0 (constant (F := Ideal) S_ .f32 0x44800000#32))
        (ix4 b 0 0 c)
      = Cert.Pool.pool x (ix4 b i j c) := by
  subst hoh how
  rw [pool_ix4, hostDivf_apply, broadcastInDim_scalar_apply, constant_apply, Cert.Pool.ofBits_1024, Cert.Pool.div_1024]
  congr 1
  refine (broadcastInDim_apply _ hb _ (ix4 b 0 0 c) (ix2 b c) fun a => ?_).trans ?_
  · match a with
    | ⟨0, _⟩ => rfl
    | ⟨1, _⟩ => rfl
  rw [hostReduceAdd_apply, constant_apply, Cert.Pool.ofBits_zero, hostReduceAdd_mid, zero_add]
  unfold Cert.Pool.binSum
  refine Finset.sum_congr rfl fun h _ => Finset.sum_congr rfl fun w _ => ?_
  refine extractStridedSlice_apply _ x hs (ix4 b h w c) _ fun a => ?_
  match a with
  | ⟨0, _⟩ => exact (Nat.zero_add _).symm
  | ⟨1, _⟩ => rfl
  | ⟨2, _⟩ => rfl
  | ⟨3, _⟩ => exact (Nat.zero_add _).symm

/-- Off the second axis, the index (b, 0, j, c) of a [16, 1, 7, 128] piece and the index (b, i, j, c) of the
    [16, 7, 7, 128] whole have the same coordinates. -/
theorem off_axis_rows (b : Fin 16) (i j : Fin 7) (c : Fin 128) (hr : S16x1x7x128.rank = S16x7x7x128.rank) :
    ∀ a : Fin S16x1x7x128.rank, a.cast hr ≠ 1 →
      ((ix4 b (0 : Fin 1) j c : S16x1x7x128.Idx) a).val = ((ix4 b i j c : S16x7x7x128.Idx) (a.cast hr)).val := by
  intro a
  match a with
  | ⟨0, _⟩ => intro _; rfl
  | ⟨1, _⟩ => intro h; exact absurd rfl h
  | ⟨2, _⟩ => intro _; rfl
  | ⟨3, _⟩ => intro _; rfl

/-- Seven [16, 1, 7, 128] arrays laid end to end on the second axis: row `i` of the whole is piece `i`. Stated as an
    equation with any array `f` that the pieces match row by row. -/
theorem concat_rows_eq {α : Type} (u0 u1 u2 u3 u4 u5 u6 : S16x1x7x128.Idx → α)
    (hc : Shape.Concatenates [S16x1x7x128, S16x1x7x128, S16x1x7x128, S16x1x7x128, S16x1x7x128, S16x1x7x128, S16x1x7x128]
      S16x7x7x128 1)
    (f : S16x7x7x128.Idx → α)
    (h0 : ∀ b j c, u0 (ix4 b 0 j c) = f (ix4 b 0 j c))
    (h1 : ∀ b j c, u1 (ix4 b 0 j c) = f (ix4 b 1 j c))
    (h2 : ∀ b j c, u2 (ix4 b 0 j c) = f (ix4 b 2 j c))
    (h3 : ∀ b j c, u3 (ix4 b 0 j c) = f (ix4 b 3 j c))
    (h4 : ∀ b j c, u4 (ix4 b 0 j c) = f (ix4 b 4 j c))
    (h5 : ∀ b j c, u5 (ix4 b 0 j c) = f (ix4 b 5 j c))
    (h6 : ∀ b j c, u6 (ix4 b 0 j c) = f (ix4 b 6 j c)) :
    concatenate S16x7x7x128 1 [⟨S16x1x7x128, u0⟩, ⟨S16x1x7x128, u1⟩, ⟨S16x1x7x128, u2⟩, ⟨S16x1x7x128, u3⟩,
      ⟨S16x1x7x128, u4⟩, ⟨S16x1x7x128, u5⟩, ⟨S16x1x7x128, u6⟩] hc = f := by
  funext o
  obtain ⟨b, i, j, c, rfl⟩ : ∃ b i j c, o = ix4 b i j c := ⟨_, _, _, _, eq_ix4 o⟩
  match i with
  | ⟨0, _⟩ =>
    exact Eq.trans (concatenate_apply_piece 1 _ _ _ 0 (by simp) S16x1x7x128 u0 (by rfl) (by rfl) 0 (by rfl)
      (ix4 b 0 j c) (off_axis_rows b _ j c rfl) (by rfl)) (h0 b j c)
  | ⟨1, _⟩ =>
    exact Eq.trans (concatenate_apply_piece 1 _ _ _ 1 (by simp) S16x1x7x128 u1 (by rfl) (by rfl) 1 (by rfl)
      (ix4 b 0 j c) (off_axis_rows b _ j c rfl) (by rfl)) (h1 b j c)
  | ⟨2, _⟩ =>
    exact Eq.trans (concatenate_apply_piece 1 _ _ _ 2 (by simp) S16x1x7x128 u2 (by rfl) (by rfl) 2 (by rfl)
      (ix4 b 0 j c) (off_axis_rows b _ j c rfl) (by rfl)) (h2 b j c)
  | ⟨3, _⟩ =>
    exact Eq.trans (concatenate_apply_piece 1 _ _ _ 3 (by simp) S16x1x7x128 u3 (by rfl) (by rfl) 3 (by rfl)
      (ix4 b 0 j c) (off_axis_rows b _ j c rfl) (by rfl)) (h3 b j c)
  | ⟨4, _⟩ =>
    exact Eq.trans (concatenate_apply_piece 1 _ _ _ 4 (by simp) S16x1x7x128 u4 (by rfl) (by rfl) 4 (by rfl)
      (ix4 b 0 j c) (off_axis_rows b _ j c rfl) (by rfl)) (h4 b j c)
  | ⟨5, _⟩ =>
    exact Eq.trans (concatenate_apply_piece 1 _ _ _ 5 (by simp) S16x1x7x128 u5 (by rfl) (by rfl) 5 (by rfl)
      (ix4 b 0 j c) (off_axis_rows b _ j c rfl) (by rfl)) (h5 b j c)
  | ⟨6, _⟩ =>
    exact Eq.trans (concatenate_apply_piece 1 _ _ _ 6 (by simp) S16x1x7x128 u6 (by rfl) (by rfl) 6 (by rfl)
      (ix4 b 0 j c) (off_axis_rows b _ j c rfl) (by rfl)) (h6 b j c)

/-- Off the third axis, the index (b, 0, 0, c) of a [16, 1, 1, 128] piece and the index (b, 0, j, c) of the
    [16, 1, 7, 128] whole have the same coordinates. -/
theorem off_axis_cols (b : Fin 16) (j : Fin 7) (c : Fin 128) (hr : S16x1x1x128.rank = S16x1x7x128.rank) :
    ∀ a : Fin S16x1x1x128.rank, a.cast hr ≠ 2 →
      ((ix4 b (0 : Fin 1) (0 : Fin 1) c : S16x1x1x128.Idx) a).val
        = ((ix4 b (0 : Fin 1) j c : S16x1x7x128.Idx) (a.cast hr)).val := by
  intro a
  match a with
  | ⟨0, _⟩ => intro _; rfl
  | ⟨1, _⟩ => intro _; rfl
  | ⟨2, _⟩ => intro h; exact absurd rfl h
  | ⟨3, _⟩ => intro _; rfl

/-- Seven [16, 1, 1, 128] arrays laid end to end on the third axis: column `j` of the whole is piece `j`. Stated against
    row `i` of any [16, 7, 7, 128] array `f` that the pieces match column by column. -/
theorem concat_cols_apply {α : Type} (v0 v1 v2 v3 v4 v5 v6 : S16x1x1x128.Idx → α)
    (hc : Shape.Concatenates [S16x1x1x128, S16x1x1x128, S16x1x1x128, S16x1x1x128, S16x1x1x128, S16x1x1x128, S16x1x1x128]
      S16x1x7x128 2)
    (f : S16x7x7x128.Idx → α) (i : Fin 7)
    (h0 : ∀ b c, v0 (ix4 b 0 0 c) = f (ix4 b i 0 c))
    (h1 : ∀ b c, v1 (ix4 b 0 0 c) = f (ix4 b i 1 c))
    (h2 : ∀ b c, v2 (ix4 b 0 0 c) = f (ix4 b i 2 c))
    (h3 : ∀ b c, v3 (ix4 b 0 0 c) = f (ix4 b i 3 c))
    (h4 : ∀ b c, v4 (ix4 b 0 0 c) = f (ix4 b i 4 c))
    (h5 : ∀ b c, v5 (ix4 b 0 0 c) = f (ix4 b i 5 c))
    (h6 : ∀ b c, v6 (ix4 b 0 0 c) = f (ix4 b i 6 c))
    (b : Fin 16) (j : Fin 7) (c : Fin 128) :
    concatenate S16x1x7x128 2 [⟨S16x1x1x128, v0⟩, ⟨S16x1x1x128, v1⟩, ⟨S16x1x1x128, v2⟩, ⟨S16x1x1x128, v3⟩,
      ⟨S16x1x1x128, v4⟩, ⟨S16x1x1x128, v5⟩, ⟨S16x1x1x128, v6⟩] hc (ix4 b 0 j c) = f (ix4 b i j c) := by
  match j with
  | ⟨0, _⟩ =>
    exact Eq.trans (concatenate_apply_piece 2 _ _ _ 0 (by simp) S16x1x1x128 v0 (by rfl) (by rfl) 0 (by rfl)
      (ix4 b 0 0 c) (off_axis_cols b _ c rfl) (by rfl)) (h0 b c)
  | ⟨1, _⟩ =>
    exact Eq.trans (concatenate_apply_piece 2 _ _ _ 1 (by simp) S16x1x1x128 v1 (by rfl) (by rfl) 1 (by rfl)
      (ix4 b 0 0 c) (off_axis_cols b _ c rfl) (by rfl)) (h1 b c)
  | ⟨2, _⟩ =>
    exact Eq.trans (concatenate_apply_piece 2 _ _ _ 2 (by simp) S16x1x1x128 v2 (by rfl) (by rfl) 2 (by rfl)
      (ix4 b 0 0 c) (off_axis_cols b _ c rfl) (by rfl)) (h2 b c)
  | ⟨3, _⟩ =>
    exact Eq.trans (concatenate_apply_piece 2 _ _ _ 3 (by simp) S16x1x1x128 v3 (by rfl) (by rfl) 3 (by rfl)
      (ix4 b 0 0 c) (off_axis_cols b _ c rfl) (by rfl)) (h3 b c)
  | ⟨4, _⟩ =>
    exact Eq.trans (concatenate_apply_piece 2 _ _ _ 4 (by simp) S16x1x1x128 v4 (by rfl) (by rfl) 4 (by rfl)
      (ix4 b 0 0 c) (off_axis_cols b _ c rfl) (by rfl)) (h4 b c)
  | ⟨5, _⟩ =>
    exact Eq.trans (concatenate_apply_piece 2 _ _ _ 5 (by simp) S16x1x1x128 v5 (by rfl) (by rfl) 5 (by rfl)
      (ix4 b 0 0 c) (off_axis_cols b _ c rfl) (by rfl)) (h5 b c)
  | ⟨6, _⟩ =>
    exact Eq.trans (concatenate_apply_piece 2 _ _ _ 6 (by simp) S16x1x1x128 v6 (by rfl) (by rfl) 6 (by rfl)
      (ix4 b 0 0 c) (off_axis_cols b _ c rfl) (by rfl)) (h6 b c)

/-- The reference's result: seven rows laid end to end, each seven window means laid end to end, is the pooled array.
    Row `i` of the whole is the `i`-th row piece, column `j` of that piece is its `j`-th window mean, and that mean is the
    pooled array at (i, j) since the slice's offsets are 32 i and 32 j. -/
theorem res_eq_pool (V0 : Valuation τ sig (Elt Ideal)) :
    Cert.ReferenceIdeal.Value.res_main_v252 (F := Ideal) V0
      = Cert.Pool.pool (V0 (Proc.devRef .tc main_arg0)) := by
  unfold Cert.ReferenceIdeal.Value.res_main_v252
  refine concat_rows_eq _ _ _ _ _ _ _ _ _ ?_ ?_ ?_ ?_ ?_ ?_ ?_ <;>
    refine concat_cols_apply _ _ _ _ _ _ _ _ _ _ ?_ ?_ ?_ ?_ ?_ ?_ ?_ <;>
    exact fun b c => bin_apply _ _ _ _ _ (by rfl) (by rfl) _ _ _ _ _ b c

end Cert.ReferenceIdeal.RefValue

end
-- ==== Proof.lean ====
/-
  Average pooling, 224 x 224 -> 7 x 7, of a [16, 224, 224, 128] array: the kernel against its jnp reference on the
  extended reals.

  The kernel's grid point (bi, oh) loads images 4 bi .. 4 bi + 3, rows 32 oh .. 32 oh + 31, adds the 32 rows one by
  one from zero, splits the 224 columns into 7 runs of 32 and sums each run, and scales by 2^-10; the reference cuts
  each of the 49 windows out of the array, sums it over its rows and columns from zero, divides by 1024 and lays the
  49 means side by side. Both are, entry by entry, the sum of the window's 1024 terms times the real 1/1024
  (`Cert.Pool.pool`, Proof/PoolSpec.lean): addition of extended reals is commutative and associative, so neither the
  order nor the grouping of the terms matters, the pattern of 2^-10 denotes exactly 1/1024, and dividing by the real
  1024 is multiplying by 1/1024 at every extended real. No finiteness of the input is used.

  Proof/BlockSum.lean reads the kernel body's block at an index; Proof/PoolArray.lean assembles the 28 blocks into
  the result array; Proof/RefPool.lean reads the reference's result. The kernel makes no rewrite at the ideal
  instance, so the idealization conjunct is trivial; the three frames are the generated ones.
-/
import proofs.«170913_j48146583388556_2_alg».proof.Defs
import proofs.«170913_j48146583388556_2_alg».proof.Proof.Gen.Kernel
import proofs.«170913_j48146583388556_2_alg».proof.Proof.Gen.Kernel.Skeleton
import proofs.«170913_j48146583388556_2_alg».proof.Proof.Gen.Kernel.Launch
import proofs.«170913_j48146583388556_2_alg».proof.Proof.Gen.Kernel.Points
import proofs.«170913_j48146583388556_2_alg».proof.Proof.Gen.Kernel.Frame
import proofs.«170913_j48146583388556_2_alg».proof.Proof.Gen.KernelIdeal
import proofs.«170913_j48146583388556_2_alg».proof.Proof.Gen.KernelIdeal.Skeleton
import proofs.«170913_j48146583388556_2_alg».proof.Proof.Gen.KernelIdeal.Launch
import proofs.«170913_j48146583388556_2_alg».proof.Proof.Gen.KernelIdeal.Points
import proofs.«170913_j48146583388556_2_alg».proof.Proof.Gen.KernelIdeal.Frame
import proofs.«170913_j48146583388556_2_alg».proof.Proof.Gen.ReferenceIdeal
import proofs.«170913_j48146583388556_2_alg».proof.Proof.Gen.KernelIdeal.Value
import proofs.«170913_j48146583388556_2_alg».proof.Proof.Gen.ReferenceIdeal.Run
import proofs.«170913_j48146583388556_2_alg».proof.Proof.Gen.Pre_finite_inputs
import proofs.«170913_j48146583388556_2_alg».proof.Proof.PoolSpec
import proofs.«170913_j48146583388556_2_alg».proof.Proof.PoolArray
import proofs.«170913_j48146583388556_2_alg».proof.Proof.RefPool
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the pooled array of the shared argument. -/
theorem algebraic : Cert.algebraic_KernelIdeal_ReferenceIdeal := by
  intro m ρ m' ρ' _ hagree
  refine ⟨fun c => Cert.Pool.pool (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq_pool]
  exact congrArg Cert.Pool.pool (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
